-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x50x30000 : Shape := ⟨3, ![64, 50, 30000]⟩
abbrev S30000x300 : Shape := ⟨2, ![30000, 300]⟩
abbrev S_ : Shape := ⟨0, ![]⟩

class Facts : Prop where
  bcast_S_S64x50x30000 : S_.BroadcastsInDim S64x50x30000 (![] : Fin 0 → Fin S64x50x30000.rank)
  reducesTo_S64x50x30000_S_d0_1_2 : S64x50x30000.ReducesTo [0, 1, 2] S_
  h_S_ : 0 < S_.numel
  bcast_S_S30000x300 : S_.BroadcastsInDim S30000x300 (![] : Fin 0 → Fin S30000x300.rank)
  reducesTo_S30000x300_S_d0_1 : S30000x300.ReducesTo [0, 1] S_

variable [Facts]

def fn {F : FTy → Type} [FloatOps F] (main_arg0 : FVec F S64x50x30000 .f32) (main_arg1 : FVec F S30000x300 .f32) : IVec S_ 1 :=
  let main_v0 : FVec F S64x50x30000 .f32 := Host.absf main_arg0
  let main_cst : FVec F S_ .f32 := constant S_ .f32 0x7F800000#32
  let main_v1 : FVec F S64x50x30000 .f32 := broadcastInDim S64x50x30000 ![] bcast_S_S64x50x30000 main_cst
  let main_v2 : IVec S64x50x30000 1 := cmpf .olt main_v0 main_v1
  let main_c : IVec S_ 1 := constantI S_ 1 1#1
  let main_v3 : IVec S_ 1 := (fun x v => Host.reduce IntOp.andi x v reducesTo_S64x50x30000_S_d0_1_2 h_S_) main_v2 main_c
  let main_v4 : FVec F S30000x300 .f32 := Host.absf main_arg1
  let main_cst_0 : FVec F S_ .f32 := constant S_ .f32 0x7F800000#32
  let main_v5 : FVec F S30000x300 .f32 := broadcastInDim S30000x300 ![] bcast_S_S30000x300 main_cst_0
  let main_v6 : IVec S30000x300 1 := cmpf .olt main_v4 main_v5
  let main_c_1 : IVec S_ 1 := constantI S_ 1 1#1
  let main_v7 : IVec S_ 1 := (fun x v => Host.reduce IntOp.andi x v reducesTo_S30000x300_S_d0_1 h_S_) main_v6 main_c_1
  let main_v8 : IVec S_ 1 := andi main_v3 main_v7
  main_v8
-- ==== Kernel.lean ====
abbrev S64x50x30000 : Shape := ⟨3, ![64, 50, 30000]⟩
abbrev S30000x300 : Shape := ⟨2, ![30000, 300]⟩
abbrev S3200x30000 : Shape := ⟨2, ![3200, 30000]⟩
abbrev S3200x300 : Shape := ⟨2, ![3200, 300]⟩
abbrev S1600x1024 : Shape := ⟨2, ![1600, 1024]⟩
abbrev S1024x300 : Shape := ⟨2, ![1024, 300]⟩
abbrev S1600x300 : Shape := ⟨2, ![1600, 300]⟩
abbrev S64x50x300 : Shape := ⟨3, ![64, 50, 300]⟩

abbrev nBuf : Space → Nat
  | .hbm => 5
  | .vmem => 7
  | .smem => 0
  | _ => 0

abbrev bufTy : (tb : Table) → Fin (tcTables nBuf tb) → BufTy
  | .hbm, ⟨0, _⟩ => ⟨S64x50x30000, .f32⟩
  | .hbm, ⟨1, _⟩ => ⟨S30000x300, .f32⟩
  | .hbm, ⟨2, _⟩ => ⟨S3200x30000, .f32⟩
  | .hbm, ⟨3, _⟩ => ⟨S3200x300, .f32⟩
  | .hbm, ⟨4, _⟩ => ⟨S64x50x300, .f32⟩
  | .local _ .vmem, ⟨0, _⟩ => ⟨S1600x1024, .f32⟩
  | .local _ .vmem, ⟨1, _⟩ => ⟨S1600x1024, .f32⟩
  | .local _ .vmem, ⟨2, _⟩ => ⟨S1024x300, .f32⟩
  | .local _ .vmem, ⟨3, _⟩ => ⟨S1024x300, .f32⟩
  | .local _ .vmem, ⟨4, _⟩ => ⟨S1600x300, .f32⟩
  | .local _ .vmem, ⟨5, _⟩ => ⟨S1600x300, .f32⟩
  | .local _ .vmem, ⟨6, _⟩ => ⟨S1600x300, .f32⟩
  | _, _ => ⟨S64x50x30000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 30], ![false, false]⟩

def k0_cond2 (i : grid0.Coords) : BitVec 1 :=
  let arg1 : BitVec 32 := BitVec.ofNat 32 (i 1).val
  let c29_i32 : BitVec 32 := 29#32
  let v30 : BitVec 1 := Scalar.cmpi .eq arg1 c29_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1600x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1600x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x50x30000_S3200x30000 : S64x50x30000.ShapeCasts S3200x30000
  inb_S1600x300_S1600x300_0_0 : ∀ a, (![0, 0] : Fin 2 → Nat) a + S1600x300.size a ≤ S1600x300.size a
  h_S1600x300 : 0 < S1600x300.numel
  shapeCasts_S1600x300_S1600x300 : S1600x300.ShapeCasts S1600x300
  iota_S1600x1024_d1_w32 : S1600x1024.Iotas .tc 32 [1]
  inb_S1600x1024_S1600x1024_0_0 : ∀ a, (![0, 0] : Fin 2 → Nat) a + S1600x1024.size a ≤ S1600x1024.size a
  h_S1600x1024 : 0 < S1600x1024.numel
  shapeCasts_S1600x1024_S1600x1024 : S1600x1024.ShapeCasts S1600x1024
  iota_S1024x300_d0_w32 : S1024x300.Iotas .tc 32 [0]
  inb_S1024x300_S1024x300_0_0 : ∀ a, (![0, 0] : Fin 2 → Nat) a + S1024x300.size a ≤ S1024x300.size a
  h_S1024x300 : 0 < S1024x300.numel
  bitsLt_bf16_f32 : FTy.bits .bf16 < FTy.bits .f32
  shapeCasts_S3200x300_S64x50x300 : S3200x300.ShapeCasts S64x50x300
  dot_S1600x1024_S1024x300_S1600x300_1_0_0_1_n_n_wf : DotDims.WF S1600x1024 S1024x300 S1600x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1600x1024.size a < S3200x30000.size a
  hwx0_0 : ∀ i : grid0.Coords, EltTy.bits .f32 = 32 ∨ (Rect.unit (s := S3200x30000) (fun a => cc0_transform_0 i a * S1600x1024.size a) (fun a => (Pipeline.Clip.of (cc0_transform_0 i a) (S1600x1024.size a) (S3200x30000.size a)).extent (S1600x1024.size a)) fun a => Pipeline.Clip.inb (Pipeline.Clip.ok_of (hstart0_0 i a))).WholeWords (EltTy.packing .f32)
  hwxs0_0 : ∀ i : grid0.Coords, EltTy.bits .f32 = 32 ∨ (Rect.unit (s := S1600x1024) (fun _ => 0) (fun a => (Pipeline.Clip.of (cc0_transform_0 i a) (S1600x1024.size a) (S3200x30000.size a)).extent (S1600x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x300.size a < S30000x300.size a
  hwx0_1 : ∀ i : grid0.Coords, EltTy.bits .f32 = 32 ∨ (Rect.unit (s := S30000x300) (fun a => cc0_transform_1 i a * S1024x300.size a) (fun a => (Pipeline.Clip.of (cc0_transform_1 i a) (S1024x300.size a) (S30000x300.size a)).extent (S1024x300.size a)) fun a => Pipeline.Clip.inb (Pipeline.Clip.ok_of (hstart0_1 i a))).WholeWords (EltTy.packing .f32)
  hwxs0_1 : ∀ i : grid0.Coords, EltTy.bits .f32 = 32 ∨ (Rect.unit (s := S1024x300) (fun _ => 0) (fun a => (Pipeline.Clip.of (cc0_transform_1 i a) (S1024x300.size a) (S30000x300.size a)).extent (S1024x300.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x300.size a ≤ S3200x300.size a
  hwx0_2 : ∀ i : grid0.Coords, EltTy.bits .f32 = 32 ∨ (Rect.block (s := S3200x300) S1600x300.size (cc0_transform_2 i) (hinb0_2 i)).WholeWords (EltTy.packing .f32)

variable [Facts₀]

def dot_S1600x1024_S1024x300_S1600x300_1_0_0_1_n_n : DotDims S1600x1024 S1024x300 S1600x300 where
  lhsContracting := [1]
  rhsContracting := [0]
  lhsNonContracting := [0]
  rhsNonContracting := [1]
  lhsBatch := []
  rhsBatch := []
  wf := dot_S1600x1024_S1024x300_S1600x300_1_0_0_1_n_n_wf

abbrev win0_0 : Pipeline.Window sig grid0 :=
  Pipeline.Window.ofSpecClip (Memref.whole main_v0) S1600x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S1024x300.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S1600x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x50x30000 : Shape := ⟨3, ![64, 50, 30000]⟩
abbrev S30000x300 : Shape := ⟨2, ![30000, 300]⟩
abbrev S64x50x300 : Shape := ⟨3, ![64, 50, 300]⟩

abbrev nBuf : Space → Nat
  | .hbm => 3
  | .vmem => 0
  | .smem => 0
  | _ => 0

abbrev bufTy : (tb : Table) → Fin (tcTables nBuf tb) → BufTy
  | .hbm, ⟨0, _⟩ => ⟨S64x50x30000, .f32⟩
  | .hbm, ⟨1, _⟩ => ⟨S30000x300, .f32⟩
  | .hbm, ⟨2, _⟩ => ⟨S64x50x300, .f32⟩
  | _, _ => ⟨S64x50x30000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S64x50x30000_S30000x300_S64x50x300_2_0_01_1_n_n_wf : DotDims.WF S64x50x30000 S30000x300 S64x50x300 [2] [0] [0, 1] [1] [] []

variable [Facts₀]

def dot_S64x50x30000_S30000x300_S64x50x300_2_0_01_1_n_n : DotDims S64x50x30000 S30000x300 S64x50x300 where
  lhsContracting := [2]
  rhsContracting := [0]
  lhsNonContracting := [0, 1]
  rhsNonContracting := [1]
  lhsBatch := []
  rhsBatch := []
  wf := dot_S64x50x30000_S30000x300_S64x50x300_2_0_01_1_n_n_wf

class Facts : Prop extends Facts₀ where

variable [Facts]
-- ==== Proof.BodyBits.lean ====
import proofs.«158700_j17918603559083_2_alg».proof.Proof.Gen.Kernel.Frame
import proofs.«158700_j17918603559083_2_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The kernel body at one grid point

The body keeps a running sum in its scratch buffer: at the first reduction step it zeroes the scratch, at every step it
adds the product of the two masked input tiles to it, and at the last step it copies the scratch into the output's staging
buffer. Three runs, one per position of the step in the reduction; each states what the scratch (and, at the last step, the
output's buffer) holds afterwards as the body's own arithmetic `k0_pay2` of what the buffers held before. -/

/-- The reduction step is the first one (the body's first branch is taken). -/
abbrev condFirst (i : grid0.Coords) : Prop := (Scalar.cmpi .ne (Scalar.extui (Scalar.cmpi .eq (BitVec.ofNat 32 (i 1).val) 0#32)) 0#32) = 1#1
/-- The reduction step is the last one (the body's second branch is taken). -/
abbrev condLast (i : grid0.Coords) : Prop := k0_cond2 i = 1#1

theorem hz2 : (![0, 0] : Fin 2 → Nat) = fun _ => 0 := funext fun a => by fin_cases a <;> rfl

set_option maxHeartbeats 2000000 in
/-- First step: the scratch, whatever it held, ends at the step's product added to zero. -/
theorem run_first (c : Dev nD) (i : grid0.Coords) (arg2 : Memref sig .tc .vmem S1600x1024 .f32) (harg2 : arg2.IsWhole) (arg3 : Memref sig .tc .vmem S1024x300 .f32) (harg3 : arg3.IsWhole) (arg4 : Memref sig .tc .vmem S1600x300 .f32) (harg4 : arg4.IsWhole) (arg5 : Memref sig .tc .vmem S1600x300 .f32) (harg5 : arg5.IsWhole)
    (hc0 : condFirst i) (hc1 : ¬condLast i)
    (X0 : Vec F S1600x1024 .f32) (X1 : Vec F S1024x300 .f32) (E : Set ℕ) (K : PUnit → sProp 𝕄) :
    iprop(owns (c : Thread nD τ) arg2 fullShare X0 ∗ owns (c : Thread nD τ) arg3 fullShare X1 ∗ (∃ d, owns (c : Thread nD τ) arg5 fullShare d)
        ∗ (iprop(owns (c : Thread nD τ) arg2 fullShare X0 ∗ owns (c : Thread nD τ) arg3 fullShare X1
            ∗ owns (c : Thread nD τ) arg5 fullShare (k0_pay2 i X0 X1 (k0_pay1 (F := F)))) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS0
  ipureintro
  sl_unfold_words
  rw [View.read_writes_eq_canon _ _ _ (fun y => ⟨_, List.mem_cons_self, View.mem_set_unit_zero hz2 inb_S1600x300_S1600x300_0_0 y⟩),
    View.canon_cons_unit_zero hz2, View.readCov_unit_zero _ hz2]
  simp only [View.readAt_eq_ld, hf0, hf1, View.ld_unit_zero (S := S1600x1024) hz2, View.ld_unit_zero (S := S1024x300) hz2]

set_option maxHeartbeats 2000000 in
/-- A middle step: the scratch ends at the step's product added to what it held. -/
theorem run_mid (c : Dev nD) (i : grid0.Coords) (arg2 : Memref sig .tc .vmem S1600x1024 .f32) (harg2 : arg2.IsWhole) (arg3 : Memref sig .tc .vmem S1024x300 .f32) (harg3 : arg3.IsWhole) (arg4 : Memref sig .tc .vmem S1600x300 .f32) (harg4 : arg4.IsWhole) (arg5 : Memref sig .tc .vmem S1600x300 .f32) (harg5 : arg5.IsWhole)
    (hc0 : ¬condFirst i) (hc1 : ¬condLast i)
    (X0 : Vec F S1600x1024 .f32) (X1 : Vec F S1024x300 .f32) (S : Vec F S1600x300 .f32) (E : Set ℕ) (K : PUnit → sProp 𝕄) :
    iprop(owns (c : Thread nD τ) arg2 fullShare X0 ∗ owns (c : Thread nD τ) arg3 fullShare X1 ∗ owns (c : Thread nD τ) arg5 fullShare S
        ∗ (iprop(owns (c : Thread nD τ) arg2 fullShare X0 ∗ owns (c : Thread nD τ) arg3 fullShare X1
            ∗ owns (c : Thread nD τ) arg5 fullShare (k0_pay2 i X0 X1 S)) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS0
  ipureintro
  sl_unfold_words
  rw [View.read_writes_eq_canon _ _ _ (fun y => ⟨_, List.mem_cons_self, View.mem_set_unit_zero hz2 inb_S1600x300_S1600x300_0_0 y⟩),
    View.canon_cons_unit_zero hz2]
  simp only [View.readAt_eq_ld, hf0, hf1, hfs0, View.ld_unit_zero (S := S1600x1024) hz2, View.ld_unit_zero (S := S1024x300) hz2,
    View.ld_unit_zero (S := S1600x300) hz2]

set_option maxHeartbeats 2000000 in
/-- Last step: the scratch ends at the step's product added to what it held, and the output's staging buffer, whatever it
    held, at the same. -/
theorem run_last (c : Dev nD) (i : grid0.Coords) (arg2 : Memref sig .tc .vmem S1600x1024 .f32) (harg2 : arg2.IsWhole) (arg3 : Memref sig .tc .vmem S1024x300 .f32) (harg3 : arg3.IsWhole) (arg4 : Memref sig .tc .vmem S1600x300 .f32) (harg4 : arg4.IsWhole) (arg5 : Memref sig .tc .vmem S1600x300 .f32) (harg5 : arg5.IsWhole)
    (hc0 : ¬condFirst i) (hc1 : condLast i)
    (X0 : Vec F S1600x1024 .f32) (X1 : Vec F S1024x300 .f32) (S : Vec F S1600x300 .f32) (E : Set ℕ) (K : PUnit → sProp 𝕄) :
    iprop(owns (c : Thread nD τ) arg2 fullShare X0 ∗ owns (c : Thread nD τ) arg3 fullShare X1 ∗ (∃ d, owns (c : Thread nD τ) arg4 fullShare d)
        ∗ owns (c : Thread nD τ) arg5 fullShare S
        ∗ (iprop(owns (c : Thread nD τ) arg2 fullShare X0 ∗ owns (c : Thread nD τ) arg3 fullShare X1
            ∗ owns (c : Thread nD τ) arg4 fullShare (k0_pay2 i X0 X1 S)
            ∗ owns (c : Thread nD τ) arg5 fullShare (k0_pay2 i X0 X1 S)) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons_self, View.mem_set_unit_zero hz2 inb_S1600x300_S1600x300_0_0 y⟩),
      View.canon_cons_unit_zero hz2, View.readCov_unit_zero _ hz2]
    simp only [View.readAt_eq_ld, hf0, hf1, hfs0, View.ld_unit_zero (S := S1600x1024) hz2, View.ld_unit_zero (S := S1024x300) hz2,
      View.ld_unit_zero (S := S1600x300) hz2]
  iexists _; isplitr
  swap; · iexact HS0
  ipureintro
  sl_unfold_words
  rw [View.read_writes_eq_canon _ _ _ (fun y => ⟨_, List.mem_cons_self, View.mem_set_unit_zero hz2 inb_S1600x300_S1600x300_0_0 y⟩),
    View.canon_cons_unit_zero hz2]
  simp only [View.readAt_eq_ld, hf0, hf1, hfs0, View.ld_unit_zero (S := S1600x1024) hz2, View.ld_unit_zero (S := S1024x300) hz2,
    View.ld_unit_zero (S := S1600x300) hz2]

end Cert.Kernel.Hand

end
-- ==== Proof.MaskBits.lean ====
import proofs.«158700_j17918603559083_2_alg».proof.Proof.Gen.Kernel.Skeleton
import proofs.«158700_j17918603559083_2_alg».proof.Proof.Gen.Kernel.Points
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe

variable {F : FTy → Type} [FloatOps F]

/-! # The tail mask

A reduction step `k` covers columns `1024·k … 1024·k + 1023` of the left factor (rows of the right factor); the body keeps an
entry of a tile only where that position is below 30000 and puts the zero word elsewhere. So what a tile holds past the
arrays' end never reaches the product. -/

/-- The 32-bit comparison the body makes at offset `n` of step `k` says whether position `1024·k + n` is below 30000. -/
theorem tail_test (k n : ℕ) (hk : k < 30) (hn : n < 1024) :
    IntOp.cmpi .slt (IntOp.addi (Scalar.muli (BitVec.ofNat 32 k) 1024#32) (BitVec.ofNat 32 n)) 30000#32 = 1#1 ↔ k * 1024 + n < 30000 := by
  have e : IntOp.addi (Scalar.muli (BitVec.ofNat 32 k) 1024#32) (BitVec.ofNat 32 n) = BitVec.ofNat 32 (k * 1024 + n) := by
    unfold IntOp.addi Scalar.muli IntOp.muli
    apply BitVec.eq_of_toNat_eq
    simp only [BitVec.toNat_add, BitVec.toNat_mul, BitVec.toNat_ofNat]
    omega
  rw [e]
  unfold IntOp.cmpi
  have h1 : (BitVec.ofNat 32 (k * 1024 + n)).toInt = ((k * 1024 + n : ℕ) : ℤ) := by
    rw [BitVec.toInt_eq_toNat_cond, BitVec.toNat_ofNat]
    have : (k * 1024 + n) % 2 ^ 32 = k * 1024 + n := Nat.mod_eq_of_lt (by omega)
    rw [this]; split <;> omega
  have h2 : (30000#32).toInt = 30000 := by decide
  simp only [BitVec.slt]
  rw [h1, h2]
  constructor
  · intro h; by_contra hc
    have : ¬(((k * 1024 + n : ℕ) : ℤ) < 30000) := by omega
    rw [decide_eq_false this] at h; exact absurd h (by decide)
  · intro h
    have : (((k * 1024 + n : ℕ) : ℤ) < 30000) := by omega
    rw [decide_eq_true this]; rfl

/-- The left tile with its tail put to zero, as the body computes it. -/
def mskL (i : grid0.Coords) (X : Vec F S1600x1024 .f32) : FVec F S1600x1024 .f32 :=
  select (cmpi .slt (addi (broadcast S1600x1024 (Scalar.muli (BitVec.ofNat 32 (i 1).val) 1024#32)) (iota .tc S1600x1024 32 [1] iota_S1600x1024_d1_w32)) (broadcast S1600x1024 30000#32))
    (shapeCast S1600x1024 X shapeCasts_S1600x1024_S1600x1024) (broadcast S1600x1024 (Scalar.ofBits .f32 0x00000000#32))

/-- The right tile with its tail put to zero, as the body computes it. -/
def mskR (i : grid0.Coords) (X : Vec F S1024x300 .f32) : Vec F S1024x300 .f32 :=
  select (cmpi .slt (addi (broadcast S1024x300 (Scalar.muli (BitVec.ofNat 32 (i 1).val) 1024#32)) (iota .tc S1024x300 32 [0] iota_S1024x300_d0_w32)) (broadcast S1024x300 30000#32))
    X (broadcast S1024x300 (Scalar.ofBits .f32 0x00000000#32))

/-- The step's arithmetic on the two masked tiles and the running sum: the product of the tiles, rounded to bf16 first, added to
    the running sum. -/
def stepOf (A : FVec F S1600x1024 .f32) (B : Vec F S1024x300 .f32) (S : Vec F S1600x300 .f32) : FVec F S1600x300 .f32 :=
  shapeCast S1600x300 (addf S (matmul dot_S1600x1024_S1024x300_S1600x300_1_0_0_1_n_n none (truncf .bf16 A bitsLt_bf16_f32) (truncf .bf16 B bitsLt_bf16_f32)
    (constant S1600x300 .f32 0x00000000#32))) shapeCasts_S1600x300_S1600x300

/-- The body's payload is that arithmetic of the masked tiles. -/
theorem pay2_eq (i : grid0.Coords) (X0 : Vec F S1600x1024 .f32) (X1 : Vec F S1024x300 .f32) (S : Vec F S1600x300 .f32) :
    k0_pay2 i X0 X1 S = stepOf (mskL i X0) (mskR i X1) S := rfl

/-- The left masked tile at an entry: the tile's entry where the column's position is below 30000, else the zero word. -/
theorem mskL_apply (i : grid0.Coords) (hi : (i 1).val < 30) (X : Vec F S1600x1024 .f32) (j : S1600x1024.Idx) :
    mskL i X j = if (i 1).val * 1024 + (j 1).val < 30000 then X j else Scalar.ofBits .f32 0x00000000#32 := by
  unfold mskL
  rw [Idealize.ShloMosaic.shapeCast_self]
  show Scalar.select (IntOp.cmpi .slt (IntOp.addi (Scalar.muli (BitVec.ofNat 32 (i 1).val) 1024#32) (BitVec.ofNat 32 (0 * 1024 + (j 1).val))) 30000#32) (X j) _ = _
  unfold Scalar.select
  rw [Nat.zero_mul, Nat.zero_add]
  have hj : (j 1).val < 1024 := (j 1).isLt
  by_cases h : (i 1).val * 1024 + (j 1).val < 30000
  · have ht : IntOp.cmpi .slt (IntOp.addi (Scalar.muli (BitVec.ofNat 32 (i 1).val) 1024#32) (BitVec.ofNat 32 (j 1).val)) 30000#32 = (1 : BitVec 1) :=
      (tail_test _ _ hi hj).mpr h
    rw [if_pos ht, if_pos h]
  · have ht : ¬(IntOp.cmpi .slt (IntOp.addi (Scalar.muli (BitVec.ofNat 32 (i 1).val) 1024#32) (BitVec.ofNat 32 (j 1).val)) 30000#32 = (1 : BitVec 1)) :=
      fun h' => h ((tail_test _ _ hi hj).mp h')
    rw [if_neg ht, if_neg h]; rfl

/-- The right masked tile at an entry: the tile's entry where the row's position is below 30000, else the zero word. -/
theorem mskR_apply (i : grid0.Coords) (hi : (i 1).val < 30) (X : Vec F S1024x300 .f32) (j : S1024x300.Idx) :
    mskR i X j = if (i 1).val * 1024 + (j 0).val < 30000 then X j else Scalar.ofBits .f32 0x00000000#32 := by
  unfold mskR
  show Scalar.select (IntOp.cmpi .slt (IntOp.addi (Scalar.muli (BitVec.ofNat 32 (i 1).val) 1024#32) (BitVec.ofNat 32 (0 * 1024 + (j 0).val))) 30000#32) (X j) _ = _
  unfold Scalar.select
  rw [Nat.zero_mul, Nat.zero_add]
  have hj : (j 0).val < 1024 := (j 0).isLt
  by_cases h : (i 1).val * 1024 + (j 0).val < 30000
  · have ht : IntOp.cmpi .slt (IntOp.addi (Scalar.muli (BitVec.ofNat 32 (i 1).val) 1024#32) (BitVec.ofNat 32 (j 0).val)) 30000#32 = (1 : BitVec 1) :=
      (tail_test _ _ hi hj).mpr h
    rw [if_pos ht, if_pos h]
  · have ht : ¬(IntOp.cmpi .slt (IntOp.addi (Scalar.muli (BitVec.ofNat 32 (i 1).val) 1024#32) (BitVec.ofNat 32 (j 0).val)) 30000#32 = (1 : BitVec 1)) :=
      fun h' => h ((tail_test _ _ hi hj).mp h')
    rw [if_neg ht, if_neg h]; rfl

end Cert.Kernel.Hand

end
-- ==== Proof.DataBits.lean ====
import proofs.«158700_j17918603559083_2_alg».proof.Proof.BodyBits
import proofs.«158700_j17918603559083_2_alg».proof.Proof.MaskBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The proof data of the pipeline, the body obligation, the run and the frame

The grid is 2 × 30: point `t` is row block `t / 30` at reduction step `t % 30`. The scratch buffer carries the running sum from
step to step; the output's staging buffer receives it at step 29, and is written back there and nowhere else. The two input
windows' last blocks overhang their arrays, so a staging buffer holds its block only where the block lies inside the array; the
body masks exactly the rest (`mskL_apply`, `mskR_apply`), so that the running sum is the same function of the blocks whatever
the overhang holds (`pay2_tiles`). -/

variable (m : (ℓ : Loc nD τ sig) → Buf (Elt F) ℓ) (ρ : Dev nD → PrngReg)

/-! ## Decided over the grid -/

/-- The reduction step of a point, and how much of each input block lies inside its array there: all of it but at step 29,
    where 304 of the 1024 columns (rows) do. -/
theorem grid_facts : ∀ t : Fin cfg0.N, ((grid0.coords t) 1).val = t.val % 30
    ∧ win0_0.xsize (grid0.coords t) 0 = 1600 ∧ win0_0.xsize (grid0.coords t) 1 = (if t.val % 30 = 29 then 304 else 1024)
    ∧ win0_1.xsize (grid0.coords t) 0 = (if t.val % 30 = 29 then 304 else 1024) ∧ win0_1.xsize (grid0.coords t) 1 = 300 :=
  (by decide +kernel : ∀ t : Fin grid0.N, ((grid0.coords t) 1).val = t.val % 30
    ∧ win0_0.xsize (grid0.coords t) 0 = 1600 ∧ win0_0.xsize (grid0.coords t) 1 = (if t.val % 30 = 29 then 304 else 1024)
    ∧ win0_1.xsize (grid0.coords t) 0 = (if t.val % 30 = 29 then 304 else 1024) ∧ win0_1.xsize (grid0.coords t) 1 = 300)

theorem hcondFirst : ∀ t : Fin cfg0.N, condFirst (grid0.coords t) ↔ t.val % 30 = 0 :=
  (by decide +kernel : ∀ t : Fin grid0.N, condFirst (grid0.coords t) ↔ t.val % 30 = 0)
theorem hcondLast : ∀ t : Fin cfg0.N, condLast (grid0.coords t) ↔ t.val % 30 = 29 :=
  (by decide +kernel : ∀ t : Fin grid0.N, condLast (grid0.coords t) ↔ t.val % 30 = 29)
/-- The output window is idle, and not written back, at every step but the last; live at the last. -/
theorem idle2 : ∀ t : Fin cfg0.N, ¬condLast (grid0.coords t) → cfg0.idle 2 (grid0.coords t) = true := by decide +kernel
theorem live2 : ∀ t : Fin cfg0.N, condLast (grid0.coords t) → cfg0.idle 2 (grid0.coords t) = false := by decide +kernel
theorem noflush2 : ∀ t : Fin cfg0.N, ¬condLast (grid0.coords t) → (cfg0.win 2).flush t = false := by decide +kernel

/-! ## The running sum does not see the overhang -/

/-- Contents of a block that agree on the part inside the array agree at every entry there. -/
theorem agree_of_cut {G : Pipeline.Grid} (w : Window sig G) (i : G.Coords) {α : Type} {X Y : w.block.Idx → α}
    (h : w.cut i X = w.cut i Y) (j : w.block.Idx) (hm : w.moved i j = true) : X j = Y j :=
  congrFun h (fun a => ⟨(j a).val, (w.moved_iff i j).mp hm a⟩)

theorem mskL_congr (t : Fin cfg0.N) (X Y : Vec F S1600x1024 .f32)
    (h : win0_0.cut (grid0.coords t) X = win0_0.cut (grid0.coords t) Y) : mskL (grid0.coords t) X = mskL (grid0.coords t) Y := by
  obtain ⟨hk, h00, h01, -, -⟩ := grid_facts t
  have hN : t.val < 60 := lt_of_lt_of_eq t.isLt N_0
  have hi : ((grid0.coords t) 1).val < 30 := by rw [hk]; omega
  funext j
  rw [mskL_apply _ hi, mskL_apply _ hi]
  split
  · rename_i hlt
    refine agree_of_cut win0_0 _ h j ((win0_0.moved_iff _ j).mpr fun a => ?_)
    match a with
    | ⟨0, _⟩ => exact lt_of_lt_of_eq (j 0).isLt h00.symm
    | ⟨1, _⟩ =>
      show (j 1).val < win0_0.xsize (grid0.coords t) 1
      rw [h01]
      have hj : (j 1).val < 1024 := (j 1).isLt
      rw [hk] at hlt
      split <;> omega
  · rfl

theorem mskR_congr (t : Fin cfg0.N) (X Y : Vec F S1024x300 .f32)
    (h : win0_1.cut (grid0.coords t) X = win0_1.cut (grid0.coords t) Y) : mskR (grid0.coords t) X = mskR (grid0.coords t) Y := by
  obtain ⟨hk, -, -, h10, h11⟩ := grid_facts t
  have hN : t.val < 60 := lt_of_lt_of_eq t.isLt N_0
  have hi : ((grid0.coords t) 1).val < 30 := by rw [hk]; omega
  funext j
  rw [mskR_apply _ hi, mskR_apply _ hi]
  split
  · rename_i hlt
    refine agree_of_cut win0_1 _ h j ((win0_1.moved_iff _ j).mpr fun a => ?_)
    match a with
    | ⟨0, _⟩ =>
      show (j 0).val < win0_1.xsize (grid0.coords t) 0
      rw [h10]
      have hj : (j 0).val < 1024 := (j 0).isLt
      rw [hk] at hlt
      split <;> omega
    | ⟨1, _⟩ => exact lt_of_lt_of_eq (j 1).isLt h11.symm
  · rfl

/-! ## The blocks and the running sum -/

/-- The left factor's block at point `t`: its part inside the array, as the fetch reads it. -/
def blkL (c : Dev nD) (t : Fin cfg0.N) : (win0_0.xblock (grid0.coords t)).Idx → Elt F .f32 :=
  (win0_0.blk t).view.read (Elt F) (V m c (Pipeline.arrRef spec0 0))
/-- The right factor's block at point `t`, likewise. -/
def blkR (c : Dev nD) (t : Fin cfg0.N) : (win0_1.xblock (grid0.coords t)).Idx → Elt F .f32 :=
  (win0_1.blk t).view.read (Elt F) (V m c (Pipeline.arrRef spec0 1))
/-- The blocks filled out to whole tiles with the zero word (any filler would do: the body masks it). -/
def tileL (c : Dev nD) (t : Fin cfg0.N) : Vec F S1600x1024 .f32 :=
  win0_0.fill (grid0.coords t) (fun _ => Scalar.ofBits .f32 0#32) (blkL m c t)
def tileR (c : Dev nD) (t : Fin cfg0.N) : Vec F S1024x300 .f32 :=
  win0_1.fill (grid0.coords t) (fun _ => Scalar.ofBits .f32 0#32) (blkR m c t)

/-- Whatever the overhang of the staging buffers holds, the step computes what it computes of the zero-filled tiles. -/
theorem pay2_tiles (c : Dev nD) (t : Fin cfg0.N) (d0 : S1600x1024.Idx → Elt F .f32) (d1 : S1024x300.Idx → Elt F .f32) (S : Vec F S1600x300 .f32) :
    k0_pay2 (grid0.coords t) (win0_0.fill (grid0.coords t) d0 (blkL m c t)) (win0_1.fill (grid0.coords t) d1 (blkR m c t)) S
      = k0_pay2 (grid0.coords t) (tileL m c t) (tileR m c t) S := by
  rw [pay2_eq, pay2_eq, mskL_congr t _ (tileL m c t) (by unfold tileL; rw [Window.cut_fill, Window.cut_fill]),
    mskR_congr t _ (tileR m c t) (by unfold tileR; rw [Window.cut_fill, Window.cut_fill])]

/-- THE RUNNING SUM: what the scratch buffer holds after the body at point `n` — the step's product added to zero at a first
    step, to what the point before left otherwise. -/
def accAt (c : Dev nD) : (n : ℕ) → n < cfg0.N → Vec F S1600x300 .f32
  | 0, hn => k0_pay2 (grid0.coords ⟨0, hn⟩) (tileL m c ⟨0, hn⟩) (tileR m c ⟨0, hn⟩) (k0_pay1 (F := F))
  | n + 1, hn => k0_pay2 (grid0.coords ⟨n + 1, hn⟩) (tileL m c ⟨n + 1, hn⟩) (tileR m c ⟨n + 1, hn⟩)
      (if (n + 1) % 30 = 0 then k0_pay1 (F := F) else accAt c n (Nat.lt_of_succ_lt hn))

theorem accAt_first (c : Dev nD) (t : Fin cfg0.N) (h : t.val % 30 = 0) :
    accAt m c t.val t.isLt = k0_pay2 (grid0.coords t) (tileL m c t) (tileR m c t) (k0_pay1 (F := F)) := by
  obtain ⟨n, hn⟩ := t
  cases n with
  | zero => rfl
  | succ n =>
    show k0_pay2 _ _ _ (if (n + 1) % 30 = 0 then _ else _) = _
    rw [if_pos h]

theorem accAt_next (c : Dev nD) (t : Fin cfg0.N) (h : ¬t.val % 30 = 0) :
    accAt m c t.val t.isLt = k0_pay2 (grid0.coords t) (tileL m c t) (tileR m c t)
      (accAt m c (t.val - 1) (Nat.lt_of_le_of_lt (Nat.sub_le _ _) t.isLt)) := by
  obtain ⟨n, hn⟩ := t
  cases n with
  | zero => exact absurd (Nat.zero_mod _) h
  | succ n =>
    show k0_pay2 _ _ _ (if (n + 1) % 30 = 0 then _ else _) = _
    rw [if_neg h]; rfl

/-! ## The region invariant: the scratch at the running sum -/

/-- The scratch operand, a whole scoped buffer of the kernel's own. -/
abbrev scM : Memref sig .tc .vmem S1600x300 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before the first point the scratch holds anything; after point `n` the running sum there. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the region finds them; after the body the inputs' buffers at their zero-filled tiles (stated on the part inside
    the array only: both windows are loose) and the output's at the running sum (consulted at step 29 only); the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tileL m c t
    | ⟨1, _⟩ => tileR m c t
    | ⟨2, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after2 (c : Dev nD) (t : Fin cfg0.N) : (dats m 0 c).after 2 t = accAt m c t.val t.isLt := by dsimp only [dats]

/-- Each window's current staging memref at point `t`, as the pipeline passes it. -/
abbrev ms0 (t : Fin cfg0.N) : Memref sig .tc .vmem S1600x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x300 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1600x300 .f32 := win0_2.stage (cfg0.slots t 2)
abbrev hs2 (t : Fin cfg0.N) : (ms2 t).IsWhole := hstage0_2 ((cfg0.slots t 2).cast nbuf0_2)

/-- The inputs are fetched at every point: their buffers hold the block inside the array, anything outside. -/
theorem before0 (c : Dev nD) (t : Fin cfg0.N) (d) :
    (dats m 0 c).before 0 t d = win0_0.fill (grid0.coords t) d (blkL m c t) := by
  rw [Dat.before_fetched _ 0 t (fetch0_0 t)]; unfold Dat.fetched Dat.blockOf blkL; dsimp only [dats]
theorem before1 (c : Dev nD) (t : Fin cfg0.N) (d) :
    (dats m 0 c).before 1 t d = win0_1.fill (grid0.coords t) d (blkR m c t) := by
  rw [Dat.before_fetched _ 1 t (fetch0_1 t)]; unfold Dat.fetched Dat.blockOf blkR; dsimp only [dats]

/-- What the loop asks of the inputs' buffers afterwards: their blocks inside the array, anything outside. -/
theorem leaves0 (c : Dev nD) (t : Fin cfg0.N) :
    (dats m 0 c).leaves 0 t = iprop(∃ d, owns (c : Thread nD τ) (ms0 t) fullShare (win0_0.fill (grid0.coords t) d (blkL m c t))) := by
  unfold Dat.leaves; dsimp only [dats]; unfold tileL; simp only [Window.cut_fill]; rfl
theorem leaves1 (c : Dev nD) (t : Fin cfg0.N) :
    (dats m 0 c).leaves 1 t = iprop(∃ d, owns (c : Thread nD τ) (ms1 t) fullShare (win0_1.fill (grid0.coords t) d (blkR m c t))) := by
  unfold Dat.leaves; dsimp only [dats]; unfold tileR; simp only [Window.cut_fill]; rfl
/-- Of the output's: at the last step the running sum; elsewhere what it was handed. -/
theorem leaves2_last (c : Dev nD) (t : Fin cfg0.N) (h : condLast (grid0.coords t)) :
    (dats m 0 c).leaves 2 t = owns (c : Thread nD τ) (ms2 t) fullShare (accAt m c t.val t.isLt) := by
  unfold Dat.leaves; rw [live2 t h]; dsimp only [dats]; try rfl
theorem leaves2_idle (c : Dev nD) (t : Fin cfg0.N) (h : ¬condLast (grid0.coords t)) :
    (dats m 0 c).leaves 2 t = iprop(∃ d, owns (c : Thread nD τ) (ms2 t) fullShare ((dats m 0 c).before 2 t d)) :=
  Dat.leaves_idle (dats m 0 c) 2 t (idle2 t h) (noflush2 t h)

end Cert.Kernel.Hand

end
-- ==== Proof.RunBits.lean ====
import proofs.«158700_j17918603559083_2_alg».proof.Proof.DataBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The body obligation at every point, the run, and the frame -/

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

set_option maxHeartbeats 4000000 in
/-- The body at any point. The step's position in the reduction (`t % 30`) picks the run; the inputs' buffers hold their blocks
    inside the arrays and anything outside, which the step's arithmetic does not see (`pay2_tiles`); the invariant hands the
    scratch over at the running sum of the point before (at anything before a first step) and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 60 := lt_of_lt_of_eq t.isLt N_0
  by_cases h1 : t.val % 30 = 29
  · have h0 : ¬t.val % 30 = 0 := by omega
    have hz : t.val ≠ 0 := by omega
    rw [leaves2_last m c t ((hcondLast t).mpr h1), accAt_next m c t h0, PhiS_castSucc m c t, PhiS_pos m c _ _ hz]
    iintro ⟨⟨HS, Hg⟩, Ho, ⟨%d0, H0⟩, ⟨%d1, H1⟩, ⟨%d2, H2⟩⟩
    rw [← pay2_tiles m c t d0 d1]
    iapply (run_last c (grid0.coords t) (ms0 t) (hs0 t) (ms1 t) (hs1 t) (ms2 t) (hs2 t) scM (Memref.isWhole_whole _)
      (fun h => h0 ((hcondFirst t).mp h)) ((hcondLast t).mpr h1) _ _ _ Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexists d0; iexact H0
    isplitl [H1]; · iexists d1; iexact H1
    iexact H2
  · by_cases h0 : t.val % 30 = 0
    · rw [leaves2_idle m c t (fun h => h1 ((hcondLast t).mp h)), accAt_first m c t h0]
      by_cases hz : t.val = 0
      · rw [PhiS_castSucc m c t, PhiS_zero m c _ _ hz, PhiA_eq]
        iintro ⟨⟨HS, Hg⟩, Ho, ⟨%d0, H0⟩, ⟨%d1, H1⟩, H2⟩
        rw [← pay2_tiles m c t d0 d1]
        iapply (run_first c (grid0.coords t) (ms0 t) (hs0 t) (ms1 t) (hs1 t) (ms2 t) (hs2 t) scM (Memref.isWhole_whole _)
          ((hcondFirst t).mpr h0) (fun h => h1 ((hcondLast t).mp h)) _ _ Set.univ _)
        isplitl [H0]; · iexact H0
        isplitl [H1]; · iexact H1
        isplitl [HS]; · iexact HS
        iintro ⟨H0, H1, HS⟩
        isplitl [HS Hg]
        · isplitl [HS]; · iexact HS
          iexact Hg
        isplitl [Ho]; · iexact Ho
        isplitl [H0]; · iexists d0; iexact H0
        isplitl [H1]; · iexists d1; iexact H1
        iexact H2
      · rw [PhiS_castSucc m c t, PhiS_pos m c _ _ hz]
        iintro ⟨⟨HS, Hg⟩, Ho, ⟨%d0, H0⟩, ⟨%d1, H1⟩, H2⟩
        rw [← pay2_tiles m c t d0 d1]
        iapply (run_first c (grid0.coords t) (ms0 t) (hs0 t) (ms1 t) (hs1 t) (ms2 t) (hs2 t) scM (Memref.isWhole_whole _)
          ((hcondFirst t).mpr h0) (fun h => h1 ((hcondLast t).mp h)) _ _ Set.univ _)
        isplitl [H0]; · iexact H0
        isplitl [H1]; · iexact H1
        isplitl [HS]; · iexists _; iexact HS
        iintro ⟨H0, H1, HS⟩
        isplitl [HS Hg]
        · isplitl [HS]; · iexact HS
          iexact Hg
        isplitl [Ho]; · iexact Ho
        isplitl [H0]; · iexists d0; iexact H0
        isplitl [H1]; · iexists d1; iexact H1
        iexact H2
    · have hz : t.val ≠ 0 := fun hz => h0 (by rw [hz])
      rw [leaves2_idle m c t (fun h => h1 ((hcondLast t).mp h)), accAt_next m c t h0, PhiS_castSucc m c t, PhiS_pos m c _ _ hz]
      iintro ⟨⟨HS, Hg⟩, Ho, ⟨%d0, H0⟩, ⟨%d1, H1⟩, H2⟩
      rw [← pay2_tiles m c t d0 d1]
      iapply (run_mid c (grid0.coords t) (ms0 t) (hs0 t) (ms1 t) (hs1 t) (ms2 t) (hs2 t) scM (Memref.isWhole_whole _)
        (fun h => h0 ((hcondFirst t).mp h)) (fun h => h1 ((hcondLast t).mp h)) _ _ _ Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexists d0; iexact H0
      isplitl [H1]; · iexists d1; iexact H1
      iexact H2

/-- The library's body obligation (each window's buffer stated where its transfers move it), at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 60 := N_0; omega), PhiA_eq]
  iintro ⟨HS, Hg⟩
  isplitl [HS]
  · iexists _; iexact HS
  iexact Hg

set_option backward.isDefEq.respectTransparency.types false in
/-- Every weakly fair execution of @main terminates without a fault, every array of the pipeline ending at what the library
    computes from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the run, read at the two argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.BodyIdeal.lean ====
import proofs.«158700_j17918603559083_2_alg».proof.Proof.Gen.KernelIdeal.Frame
import proofs.«158700_j17918603559083_2_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The kernel body at one grid point

The body keeps a running sum in its scratch buffer: at the first reduction step it zeroes the scratch, at every step it
adds the product of the two masked input tiles to it, and at the last step it copies the scratch into the output's staging
buffer. Three runs, one per position of the step in the reduction; each states what the scratch (and, at the last step, the
output's buffer) holds afterwards as the body's own arithmetic `k0_pay2` of what the buffers held before. -/

/-- The reduction step is the first one (the body's first branch is taken). -/
abbrev condFirst (i : grid0.Coords) : Prop := (Scalar.cmpi .ne (Scalar.extui (Scalar.cmpi .eq (BitVec.ofNat 32 (i 1).val) 0#32)) 0#32) = 1#1
/-- The reduction step is the last one (the body's second branch is taken). -/
abbrev condLast (i : grid0.Coords) : Prop := k0_cond2 i = 1#1

theorem hz2 : (![0, 0] : Fin 2 → Nat) = fun _ => 0 := funext fun a => by fin_cases a <;> rfl

set_option maxHeartbeats 2000000 in
/-- First step: the scratch, whatever it held, ends at the step's product added to zero. -/
theorem run_first (c : Dev nD) (i : grid0.Coords) (arg2 : Memref sig .tc .vmem S1600x1024 .f32) (harg2 : arg2.IsWhole) (arg3 : Memref sig .tc .vmem S1024x300 .f32) (harg3 : arg3.IsWhole) (arg4 : Memref sig .tc .vmem S1600x300 .f32) (harg4 : arg4.IsWhole) (arg5 : Memref sig .tc .vmem S1600x300 .f32) (harg5 : arg5.IsWhole)
    (hc0 : condFirst i) (hc1 : ¬condLast i)
    (X0 : Vec F S1600x1024 .f32) (X1 : Vec F S1024x300 .f32) (E : Set ℕ) (K : PUnit → sProp 𝕄) :
    iprop(owns (c : Thread nD τ) arg2 fullShare X0 ∗ owns (c : Thread nD τ) arg3 fullShare X1 ∗ (∃ d, owns (c : Thread nD τ) arg5 fullShare d)
        ∗ (iprop(owns (c : Thread nD τ) arg2 fullShare X0 ∗ owns (c : Thread nD τ) arg3 fullShare X1
            ∗ owns (c : Thread nD τ) arg5 fullShare (k0_pay2 i X0 X1 (k0_pay1 (F := F)))) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS0
  ipureintro
  sl_unfold_words
  rw [View.read_writes_eq_canon _ _ _ (fun y => ⟨_, List.mem_cons_self, View.mem_set_unit_zero hz2 inb_S1600x300_S1600x300_0_0 y⟩),
    View.canon_cons_unit_zero hz2, View.readCov_unit_zero _ hz2]
  simp only [View.readAt_eq_ld, hf0, hf1, View.ld_unit_zero (S := S1600x1024) hz2, View.ld_unit_zero (S := S1024x300) hz2]

set_option maxHeartbeats 2000000 in
/-- A middle step: the scratch ends at the step's product added to what it held. -/
theorem run_mid (c : Dev nD) (i : grid0.Coords) (arg2 : Memref sig .tc .vmem S1600x1024 .f32) (harg2 : arg2.IsWhole) (arg3 : Memref sig .tc .vmem S1024x300 .f32) (harg3 : arg3.IsWhole) (arg4 : Memref sig .tc .vmem S1600x300 .f32) (harg4 : arg4.IsWhole) (arg5 : Memref sig .tc .vmem S1600x300 .f32) (harg5 : arg5.IsWhole)
    (hc0 : ¬condFirst i) (hc1 : ¬condLast i)
    (X0 : Vec F S1600x1024 .f32) (X1 : Vec F S1024x300 .f32) (S : Vec F S1600x300 .f32) (E : Set ℕ) (K : PUnit → sProp 𝕄) :
    iprop(owns (c : Thread nD τ) arg2 fullShare X0 ∗ owns (c : Thread nD τ) arg3 fullShare X1 ∗ owns (c : Thread nD τ) arg5 fullShare S
        ∗ (iprop(owns (c : Thread nD τ) arg2 fullShare X0 ∗ owns (c : Thread nD τ) arg3 fullShare X1
            ∗ owns (c : Thread nD τ) arg5 fullShare (k0_pay2 i X0 X1 S)) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact HS0
  ipureintro
  sl_unfold_words
  rw [View.read_writes_eq_canon _ _ _ (fun y => ⟨_, List.mem_cons_self, View.mem_set_unit_zero hz2 inb_S1600x300_S1600x300_0_0 y⟩),
    View.canon_cons_unit_zero hz2]
  simp only [View.readAt_eq_ld, hf0, hf1, hfs0, View.ld_unit_zero (S := S1600x1024) hz2, View.ld_unit_zero (S := S1024x300) hz2,
    View.ld_unit_zero (S := S1600x300) hz2]

set_option maxHeartbeats 2000000 in
/-- Last step: the scratch ends at the step's product added to what it held, and the output's staging buffer, whatever it
    held, at the same. -/
theorem run_last (c : Dev nD) (i : grid0.Coords) (arg2 : Memref sig .tc .vmem S1600x1024 .f32) (harg2 : arg2.IsWhole) (arg3 : Memref sig .tc .vmem S1024x300 .f32) (harg3 : arg3.IsWhole) (arg4 : Memref sig .tc .vmem S1600x300 .f32) (harg4 : arg4.IsWhole) (arg5 : Memref sig .tc .vmem S1600x300 .f32) (harg5 : arg5.IsWhole)
    (hc0 : ¬condFirst i) (hc1 : condLast i)
    (X0 : Vec F S1600x1024 .f32) (X1 : Vec F S1024x300 .f32) (S : Vec F S1600x300 .f32) (E : Set ℕ) (K : PUnit → sProp 𝕄) :
    iprop(owns (c : Thread nD τ) arg2 fullShare X0 ∗ owns (c : Thread nD τ) arg3 fullShare X1 ∗ (∃ d, owns (c : Thread nD τ) arg4 fullShare d)
        ∗ owns (c : Thread nD τ) arg5 fullShare S
        ∗ (iprop(owns (c : Thread nD τ) arg2 fullShare X0 ∗ owns (c : Thread nD τ) arg3 fullShare X1
            ∗ owns (c : Thread nD τ) arg4 fullShare (k0_pay2 i X0 X1 S)
            ∗ owns (c : Thread nD τ) arg5 fullShare (k0_pay2 i X0 X1 S)) -∗ K ⟨⟩))
      ⊢ wp frame (wpE (defs₀ (F := F)) Variants.none c none) E (cc0__embedding_kernel i arg2 harg2 arg3 harg3 arg4 harg4 arg5 harg5) K := by
  simp only [cc0__embedding_kernel_eq_skeleton]; unfold cc0__embedding_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.mem_cons_self, View.mem_set_unit_zero hz2 inb_S1600x300_S1600x300_0_0 y⟩),
      View.canon_cons_unit_zero hz2, View.readCov_unit_zero _ hz2]
    simp only [View.readAt_eq_ld, hf0, hf1, hfs0, View.ld_unit_zero (S := S1600x1024) hz2, View.ld_unit_zero (S := S1024x300) hz2,
      View.ld_unit_zero (S := S1600x300) hz2]
  iexists _; isplitr
  swap; · iexact HS0
  ipureintro
  sl_unfold_words
  rw [View.read_writes_eq_canon _ _ _ (fun y => ⟨_, List.mem_cons_self, View.mem_set_unit_zero hz2 inb_S1600x300_S1600x300_0_0 y⟩),
    View.canon_cons_unit_zero hz2]
  simp only [View.readAt_eq_ld, hf0, hf1, hfs0, View.ld_unit_zero (S := S1600x1024) hz2, View.ld_unit_zero (S := S1024x300) hz2,
    View.ld_unit_zero (S := S1600x300) hz2]

end Cert.KernelIdeal.Hand

end
-- ==== Proof.MaskIdeal.lean ====
import proofs.«158700_j17918603559083_2_alg».proof.Proof.Gen.KernelIdeal.Skeleton
import proofs.«158700_j17918603559083_2_alg».proof.Proof.Gen.KernelIdeal.Points
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! # The tail mask

A reduction step `k` covers columns `1024·k … 1024·k + 1023` of the left factor (rows of the right factor); the body keeps an
entry of a tile only where that position is below 30000 and puts the zero word elsewhere. So what a tile holds past the
arrays' end never reaches the product. -/

/-- The 32-bit comparison the body makes at offset `n` of step `k` says whether position `1024·k + n` is below 30000. -/
theorem tail_test (k n : ℕ) (hk : k < 30) (hn : n < 1024) :
    IntOp.cmpi .slt (IntOp.addi (Scalar.muli (BitVec.ofNat 32 k) 1024#32) (BitVec.ofNat 32 n)) 30000#32 = 1#1 ↔ k * 1024 + n < 30000 := by
  have e : IntOp.addi (Scalar.muli (BitVec.ofNat 32 k) 1024#32) (BitVec.ofNat 32 n) = BitVec.ofNat 32 (k * 1024 + n) := by
    unfold IntOp.addi Scalar.muli IntOp.muli
    apply BitVec.eq_of_toNat_eq
    simp only [BitVec.toNat_add, BitVec.toNat_mul, BitVec.toNat_ofNat]
    omega
  rw [e]
  unfold IntOp.cmpi
  have h1 : (BitVec.ofNat 32 (k * 1024 + n)).toInt = ((k * 1024 + n : ℕ) : ℤ) := by
    rw [BitVec.toInt_eq_toNat_cond, BitVec.toNat_ofNat]
    have : (k * 1024 + n) % 2 ^ 32 = k * 1024 + n := Nat.mod_eq_of_lt (by omega)
    rw [this]; split <;> omega
  have h2 : (30000#32).toInt = 30000 := by decide
  simp only [BitVec.slt]
  rw [h1, h2]
  constructor
  · intro h; by_contra hc
    have : ¬(((k * 1024 + n : ℕ) : ℤ) < 30000) := by omega
    rw [decide_eq_false this] at h; exact absurd h (by decide)
  · intro h
    have : (((k * 1024 + n : ℕ) : ℤ) < 30000) := by omega
    rw [decide_eq_true this]; rfl

/-- The left tile with its tail put to zero, as the body computes it. -/
def mskL (i : grid0.Coords) (X : Vec F S1600x1024 .f32) : FVec F S1600x1024 .f32 :=
  select (cmpi .slt (addi (broadcast S1600x1024 (Scalar.muli (BitVec.ofNat 32 (i 1).val) 1024#32)) (iota .tc S1600x1024 32 [1] iota_S1600x1024_d1_w32)) (broadcast S1600x1024 30000#32))
    (shapeCast S1600x1024 X shapeCasts_S1600x1024_S1600x1024) (broadcast S1600x1024 (Scalar.ofBits .f32 0x00000000#32))

/-- The right tile with its tail put to zero, as the body computes it. -/
def mskR (i : grid0.Coords) (X : Vec F S1024x300 .f32) : Vec F S1024x300 .f32 :=
  select (cmpi .slt (addi (broadcast S1024x300 (Scalar.muli (BitVec.ofNat 32 (i 1).val) 1024#32)) (iota .tc S1024x300 32 [0] iota_S1024x300_d0_w32)) (broadcast S1024x300 30000#32))
    X (broadcast S1024x300 (Scalar.ofBits .f32 0x00000000#32))

/-- The step's arithmetic on the two masked tiles and the running sum: the product of the tiles, rounded to bf16 first, added to
    the running sum. -/
def stepOf (A : FVec F S1600x1024 .f32) (B : Vec F S1024x300 .f32) (S : Vec F S1600x300 .f32) : FVec F S1600x300 .f32 :=
  shapeCast S1600x300 (addf S (matmul dot_S1600x1024_S1024x300_S1600x300_1_0_0_1_n_n none (truncf .bf16 A bitsLt_bf16_f32) (truncf .bf16 B bitsLt_bf16_f32)
    (constant S1600x300 .f32 0x00000000#32))) shapeCasts_S1600x300_S1600x300

/-- The body's payload is that arithmetic of the masked tiles. -/
theorem pay2_eq (i : grid0.Coords) (X0 : Vec F S1600x1024 .f32) (X1 : Vec F S1024x300 .f32) (S : Vec F S1600x300 .f32) :
    k0_pay2 i X0 X1 S = stepOf (mskL i X0) (mskR i X1) S := rfl

/-- The left masked tile at an entry: the tile's entry where the column's position is below 30000, else the zero word. -/
theorem mskL_apply (i : grid0.Coords) (hi : (i 1).val < 30) (X : Vec F S1600x1024 .f32) (j : S1600x1024.Idx) :
    mskL i X j = if (i 1).val * 1024 + (j 1).val < 30000 then X j else Scalar.ofBits .f32 0x00000000#32 := by
  unfold mskL
  rw [Idealize.ShloMosaic.shapeCast_self]
  show Scalar.select (IntOp.cmpi .slt (IntOp.addi (Scalar.muli (BitVec.ofNat 32 (i 1).val) 1024#32) (BitVec.ofNat 32 (0 * 1024 + (j 1).val))) 30000#32) (X j) _ = _
  unfold Scalar.select
  rw [Nat.zero_mul, Nat.zero_add]
  have hj : (j 1).val < 1024 := (j 1).isLt
  by_cases h : (i 1).val * 1024 + (j 1).val < 30000
  · have ht : IntOp.cmpi .slt (IntOp.addi (Scalar.muli (BitVec.ofNat 32 (i 1).val) 1024#32) (BitVec.ofNat 32 (j 1).val)) 30000#32 = (1 : BitVec 1) :=
      (tail_test _ _ hi hj).mpr h
    rw [if_pos ht, if_pos h]
  · have ht : ¬(IntOp.cmpi .slt (IntOp.addi (Scalar.muli (BitVec.ofNat 32 (i 1).val) 1024#32) (BitVec.ofNat 32 (j 1).val)) 30000#32 = (1 : BitVec 1)) :=
      fun h' => h ((tail_test _ _ hi hj).mp h')
    rw [if_neg ht, if_neg h]; rfl

/-- The right masked tile at an entry: the tile's entry where the row's position is below 30000, else the zero word. -/
theorem mskR_apply (i : grid0.Coords) (hi : (i 1).val < 30) (X : Vec F S1024x300 .f32) (j : S1024x300.Idx) :
    mskR i X j = if (i 1).val * 1024 + (j 0).val < 30000 then X j else Scalar.ofBits .f32 0x00000000#32 := by
  unfold mskR
  show Scalar.select (IntOp.cmpi .slt (IntOp.addi (Scalar.muli (BitVec.ofNat 32 (i 1).val) 1024#32) (BitVec.ofNat 32 (0 * 1024 + (j 0).val))) 30000#32) (X j) _ = _
  unfold Scalar.select
  rw [Nat.zero_mul, Nat.zero_add]
  have hj : (j 0).val < 1024 := (j 0).isLt
  by_cases h : (i 1).val * 1024 + (j 0).val < 30000
  · have ht : IntOp.cmpi .slt (IntOp.addi (Scalar.muli (BitVec.ofNat 32 (i 1).val) 1024#32) (BitVec.ofNat 32 (j 0).val)) 30000#32 = (1 : BitVec 1) :=
      (tail_test _ _ hi hj).mpr h
    rw [if_pos ht, if_pos h]
  · have ht : ¬(IntOp.cmpi .slt (IntOp.addi (Scalar.muli (BitVec.ofNat 32 (i 1).val) 1024#32) (BitVec.ofNat 32 (j 0).val)) 30000#32 = (1 : BitVec 1)) :=
      fun h' => h ((tail_test _ _ hi hj).mp h')
    rw [if_neg ht, if_neg h]; rfl

end Cert.KernelIdeal.Hand

end
-- ==== Proof.DataIdeal.lean ====
import proofs.«158700_j17918603559083_2_alg».proof.Proof.BodyIdeal
import proofs.«158700_j17918603559083_2_alg».proof.Proof.MaskIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The proof data of the pipeline, the body obligation, the run and the frame

The grid is 2 × 30: point `t` is row block `t / 30` at reduction step `t % 30`. The scratch buffer carries the running sum from
step to step; the output's staging buffer receives it at step 29, and is written back there and nowhere else. The two input
windows' last blocks overhang their arrays, so a staging buffer holds its block only where the block lies inside the array; the
body masks exactly the rest (`mskL_apply`, `mskR_apply`), so that the running sum is the same function of the blocks whatever
the overhang holds (`pay2_tiles`). -/

variable (m : (ℓ : Loc nD τ sig) → Buf (Elt F) ℓ) (ρ : Dev nD → PrngReg)

/-! ## Decided over the grid -/

/-- The reduction step of a point, and how much of each input block lies inside its array there: all of it but at step 29,
    where 304 of the 1024 columns (rows) do. -/
theorem grid_facts : ∀ t : Fin cfg0.N, ((grid0.coords t) 1).val = t.val % 30
    ∧ win0_0.xsize (grid0.coords t) 0 = 1600 ∧ win0_0.xsize (grid0.coords t) 1 = (if t.val % 30 = 29 then 304 else 1024)
    ∧ win0_1.xsize (grid0.coords t) 0 = (if t.val % 30 = 29 then 304 else 1024) ∧ win0_1.xsize (grid0.coords t) 1 = 300 :=
  (by decide +kernel : ∀ t : Fin grid0.N, ((grid0.coords t) 1).val = t.val % 30
    ∧ win0_0.xsize (grid0.coords t) 0 = 1600 ∧ win0_0.xsize (grid0.coords t) 1 = (if t.val % 30 = 29 then 304 else 1024)
    ∧ win0_1.xsize (grid0.coords t) 0 = (if t.val % 30 = 29 then 304 else 1024) ∧ win0_1.xsize (grid0.coords t) 1 = 300)

theorem hcondFirst : ∀ t : Fin cfg0.N, condFirst (grid0.coords t) ↔ t.val % 30 = 0 :=
  (by decide +kernel : ∀ t : Fin grid0.N, condFirst (grid0.coords t) ↔ t.val % 30 = 0)
theorem hcondLast : ∀ t : Fin cfg0.N, condLast (grid0.coords t) ↔ t.val % 30 = 29 :=
  (by decide +kernel : ∀ t : Fin grid0.N, condLast (grid0.coords t) ↔ t.val % 30 = 29)
/-- The output window is idle, and not written back, at every step but the last; live at the last. -/
theorem idle2 : ∀ t : Fin cfg0.N, ¬condLast (grid0.coords t) → cfg0.idle 2 (grid0.coords t) = true := by decide +kernel
theorem live2 : ∀ t : Fin cfg0.N, condLast (grid0.coords t) → cfg0.idle 2 (grid0.coords t) = false := by decide +kernel
theorem noflush2 : ∀ t : Fin cfg0.N, ¬condLast (grid0.coords t) → (cfg0.win 2).flush t = false := by decide +kernel

/-! ## The running sum does not see the overhang -/

/-- Contents of a block that agree on the part inside the array agree at every entry there. -/
theorem agree_of_cut {G : Pipeline.Grid} (w : Window sig G) (i : G.Coords) {α : Type} {X Y : w.block.Idx → α}
    (h : w.cut i X = w.cut i Y) (j : w.block.Idx) (hm : w.moved i j = true) : X j = Y j :=
  congrFun h (fun a => ⟨(j a).val, (w.moved_iff i j).mp hm a⟩)

theorem mskL_congr (t : Fin cfg0.N) (X Y : Vec F S1600x1024 .f32)
    (h : win0_0.cut (grid0.coords t) X = win0_0.cut (grid0.coords t) Y) : mskL (grid0.coords t) X = mskL (grid0.coords t) Y := by
  obtain ⟨hk, h00, h01, -, -⟩ := grid_facts t
  have hN : t.val < 60 := lt_of_lt_of_eq t.isLt N_0
  have hi : ((grid0.coords t) 1).val < 30 := by rw [hk]; omega
  funext j
  rw [mskL_apply _ hi, mskL_apply _ hi]
  split
  · rename_i hlt
    refine agree_of_cut win0_0 _ h j ((win0_0.moved_iff _ j).mpr fun a => ?_)
    match a with
    | ⟨0, _⟩ => exact lt_of_lt_of_eq (j 0).isLt h00.symm
    | ⟨1, _⟩ =>
      show (j 1).val < win0_0.xsize (grid0.coords t) 1
      rw [h01]
      have hj : (j 1).val < 1024 := (j 1).isLt
      rw [hk] at hlt
      split <;> omega
  · rfl

theorem mskR_congr (t : Fin cfg0.N) (X Y : Vec F S1024x300 .f32)
    (h : win0_1.cut (grid0.coords t) X = win0_1.cut (grid0.coords t) Y) : mskR (grid0.coords t) X = mskR (grid0.coords t) Y := by
  obtain ⟨hk, -, -, h10, h11⟩ := grid_facts t
  have hN : t.val < 60 := lt_of_lt_of_eq t.isLt N_0
  have hi : ((grid0.coords t) 1).val < 30 := by rw [hk]; omega
  funext j
  rw [mskR_apply _ hi, mskR_apply _ hi]
  split
  · rename_i hlt
    refine agree_of_cut win0_1 _ h j ((win0_1.moved_iff _ j).mpr fun a => ?_)
    match a with
    | ⟨0, _⟩ =>
      show (j 0).val < win0_1.xsize (grid0.coords t) 0
      rw [h10]
      have hj : (j 0).val < 1024 := (j 0).isLt
      rw [hk] at hlt
      split <;> omega
    | ⟨1, _⟩ => exact lt_of_lt_of_eq (j 1).isLt h11.symm
  · rfl

/-! ## The blocks and the running sum -/

/-- The left factor's block at point `t`: its part inside the array, as the fetch reads it. -/
def blkL (c : Dev nD) (t : Fin cfg0.N) : (win0_0.xblock (grid0.coords t)).Idx → Elt F .f32 :=
  (win0_0.blk t).view.read (Elt F) (V m c (Pipeline.arrRef spec0 0))
/-- The right factor's block at point `t`, likewise. -/
def blkR (c : Dev nD) (t : Fin cfg0.N) : (win0_1.xblock (grid0.coords t)).Idx → Elt F .f32 :=
  (win0_1.blk t).view.read (Elt F) (V m c (Pipeline.arrRef spec0 1))
/-- The blocks filled out to whole tiles with the zero word (any filler would do: the body masks it). -/
def tileL (c : Dev nD) (t : Fin cfg0.N) : Vec F S1600x1024 .f32 :=
  win0_0.fill (grid0.coords t) (fun _ => Scalar.ofBits .f32 0#32) (blkL m c t)
def tileR (c : Dev nD) (t : Fin cfg0.N) : Vec F S1024x300 .f32 :=
  win0_1.fill (grid0.coords t) (fun _ => Scalar.ofBits .f32 0#32) (blkR m c t)

/-- Whatever the overhang of the staging buffers holds, the step computes what it computes of the zero-filled tiles. -/
theorem pay2_tiles (c : Dev nD) (t : Fin cfg0.N) (d0 : S1600x1024.Idx → Elt F .f32) (d1 : S1024x300.Idx → Elt F .f32) (S : Vec F S1600x300 .f32) :
    k0_pay2 (grid0.coords t) (win0_0.fill (grid0.coords t) d0 (blkL m c t)) (win0_1.fill (grid0.coords t) d1 (blkR m c t)) S
      = k0_pay2 (grid0.coords t) (tileL m c t) (tileR m c t) S := by
  rw [pay2_eq, pay2_eq, mskL_congr t _ (tileL m c t) (by unfold tileL; rw [Window.cut_fill, Window.cut_fill]),
    mskR_congr t _ (tileR m c t) (by unfold tileR; rw [Window.cut_fill, Window.cut_fill])]

/-- THE RUNNING SUM: what the scratch buffer holds after the body at point `n` — the step's product added to zero at a first
    step, to what the point before left otherwise. -/
def accAt (c : Dev nD) : (n : ℕ) → n < cfg0.N → Vec F S1600x300 .f32
  | 0, hn => k0_pay2 (grid0.coords ⟨0, hn⟩) (tileL m c ⟨0, hn⟩) (tileR m c ⟨0, hn⟩) (k0_pay1 (F := F))
  | n + 1, hn => k0_pay2 (grid0.coords ⟨n + 1, hn⟩) (tileL m c ⟨n + 1, hn⟩) (tileR m c ⟨n + 1, hn⟩)
      (if (n + 1) % 30 = 0 then k0_pay1 (F := F) else accAt c n (Nat.lt_of_succ_lt hn))

theorem accAt_first (c : Dev nD) (t : Fin cfg0.N) (h : t.val % 30 = 0) :
    accAt m c t.val t.isLt = k0_pay2 (grid0.coords t) (tileL m c t) (tileR m c t) (k0_pay1 (F := F)) := by
  obtain ⟨n, hn⟩ := t
  cases n with
  | zero => rfl
  | succ n =>
    show k0_pay2 _ _ _ (if (n + 1) % 30 = 0 then _ else _) = _
    rw [if_pos h]

theorem accAt_next (c : Dev nD) (t : Fin cfg0.N) (h : ¬t.val % 30 = 0) :
    accAt m c t.val t.isLt = k0_pay2 (grid0.coords t) (tileL m c t) (tileR m c t)
      (accAt m c (t.val - 1) (Nat.lt_of_le_of_lt (Nat.sub_le _ _) t.isLt)) := by
  obtain ⟨n, hn⟩ := t
  cases n with
  | zero => exact absurd (Nat.zero_mod _) h
  | succ n =>
    show k0_pay2 _ _ _ (if (n + 1) % 30 = 0 then _ else _) = _
    rw [if_neg h]; rfl

/-! ## The region invariant: the scratch at the running sum -/

/-- The scratch operand, a whole scoped buffer of the kernel's own. -/
abbrev scM : Memref sig .tc .vmem S1600x300 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before the first point the scratch holds anything; after point `n` the running sum there. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the region finds them; after the body the inputs' buffers at their zero-filled tiles (stated on the part inside
    the array only: both windows are loose) and the output's at the running sum (consulted at step 29 only); the invariant
    `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => tileL m c t
    | ⟨1, _⟩ => tileR m c t
    | ⟨2, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after2 (c : Dev nD) (t : Fin cfg0.N) : (dats m 0 c).after 2 t = accAt m c t.val t.isLt := by dsimp only [dats]

/-- Each window's current staging memref at point `t`, as the pipeline passes it. -/
abbrev ms0 (t : Fin cfg0.N) : Memref sig .tc .vmem S1600x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x300 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1600x300 .f32 := win0_2.stage (cfg0.slots t 2)
abbrev hs2 (t : Fin cfg0.N) : (ms2 t).IsWhole := hstage0_2 ((cfg0.slots t 2).cast nbuf0_2)

/-- The inputs are fetched at every point: their buffers hold the block inside the array, anything outside. -/
theorem before0 (c : Dev nD) (t : Fin cfg0.N) (d) :
    (dats m 0 c).before 0 t d = win0_0.fill (grid0.coords t) d (blkL m c t) := by
  rw [Dat.before_fetched _ 0 t (fetch0_0 t)]; unfold Dat.fetched Dat.blockOf blkL; dsimp only [dats]
theorem before1 (c : Dev nD) (t : Fin cfg0.N) (d) :
    (dats m 0 c).before 1 t d = win0_1.fill (grid0.coords t) d (blkR m c t) := by
  rw [Dat.before_fetched _ 1 t (fetch0_1 t)]; unfold Dat.fetched Dat.blockOf blkR; dsimp only [dats]

/-- What the loop asks of the inputs' buffers afterwards: their blocks inside the array, anything outside. -/
theorem leaves0 (c : Dev nD) (t : Fin cfg0.N) :
    (dats m 0 c).leaves 0 t = iprop(∃ d, owns (c : Thread nD τ) (ms0 t) fullShare (win0_0.fill (grid0.coords t) d (blkL m c t))) := by
  unfold Dat.leaves; dsimp only [dats]; unfold tileL; simp only [Window.cut_fill]; rfl
theorem leaves1 (c : Dev nD) (t : Fin cfg0.N) :
    (dats m 0 c).leaves 1 t = iprop(∃ d, owns (c : Thread nD τ) (ms1 t) fullShare (win0_1.fill (grid0.coords t) d (blkR m c t))) := by
  unfold Dat.leaves; dsimp only [dats]; unfold tileR; simp only [Window.cut_fill]; rfl
/-- Of the output's: at the last step the running sum; elsewhere what it was handed. -/
theorem leaves2_last (c : Dev nD) (t : Fin cfg0.N) (h : condLast (grid0.coords t)) :
    (dats m 0 c).leaves 2 t = owns (c : Thread nD τ) (ms2 t) fullShare (accAt m c t.val t.isLt) := by
  unfold Dat.leaves; rw [live2 t h]; dsimp only [dats]; try rfl
theorem leaves2_idle (c : Dev nD) (t : Fin cfg0.N) (h : ¬condLast (grid0.coords t)) :
    (dats m 0 c).leaves 2 t = iprop(∃ d, owns (c : Thread nD τ) (ms2 t) fullShare ((dats m 0 c).before 2 t d)) :=
  Dat.leaves_idle (dats m 0 c) 2 t (idle2 t h) (noflush2 t h)

end Cert.KernelIdeal.Hand

end
-- ==== Proof.RunIdeal.lean ====
import proofs.«158700_j17918603559083_2_alg».proof.Proof.DataIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The body obligation at every point, the run, and the frame -/

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

set_option maxHeartbeats 4000000 in
/-- The body at any point. The step's position in the reduction (`t % 30`) picks the run; the inputs' buffers hold their blocks
    inside the arrays and anything outside, which the step's arithmetic does not see (`pay2_tiles`); the invariant hands the
    scratch over at the running sum of the point before (at anything before a first step) and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1]
  have hN : t.val < 60 := lt_of_lt_of_eq t.isLt N_0
  by_cases h1 : t.val % 30 = 29
  · have h0 : ¬t.val % 30 = 0 := by omega
    have hz : t.val ≠ 0 := by omega
    rw [leaves2_last m c t ((hcondLast t).mpr h1), accAt_next m c t h0, PhiS_castSucc m c t, PhiS_pos m c _ _ hz]
    iintro ⟨⟨HS, Hg⟩, Ho, ⟨%d0, H0⟩, ⟨%d1, H1⟩, ⟨%d2, H2⟩⟩
    rw [← pay2_tiles m c t d0 d1]
    iapply (run_last c (grid0.coords t) (ms0 t) (hs0 t) (ms1 t) (hs1 t) (ms2 t) (hs2 t) scM (Memref.isWhole_whole _)
      (fun h => h0 ((hcondFirst t).mp h)) ((hcondLast t).mpr h1) _ _ _ Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexists d0; iexact H0
    isplitl [H1]; · iexists d1; iexact H1
    iexact H2
  · by_cases h0 : t.val % 30 = 0
    · rw [leaves2_idle m c t (fun h => h1 ((hcondLast t).mp h)), accAt_first m c t h0]
      by_cases hz : t.val = 0
      · rw [PhiS_castSucc m c t, PhiS_zero m c _ _ hz, PhiA_eq]
        iintro ⟨⟨HS, Hg⟩, Ho, ⟨%d0, H0⟩, ⟨%d1, H1⟩, H2⟩
        rw [← pay2_tiles m c t d0 d1]
        iapply (run_first c (grid0.coords t) (ms0 t) (hs0 t) (ms1 t) (hs1 t) (ms2 t) (hs2 t) scM (Memref.isWhole_whole _)
          ((hcondFirst t).mpr h0) (fun h => h1 ((hcondLast t).mp h)) _ _ Set.univ _)
        isplitl [H0]; · iexact H0
        isplitl [H1]; · iexact H1
        isplitl [HS]; · iexact HS
        iintro ⟨H0, H1, HS⟩
        isplitl [HS Hg]
        · isplitl [HS]; · iexact HS
          iexact Hg
        isplitl [Ho]; · iexact Ho
        isplitl [H0]; · iexists d0; iexact H0
        isplitl [H1]; · iexists d1; iexact H1
        iexact H2
      · rw [PhiS_castSucc m c t, PhiS_pos m c _ _ hz]
        iintro ⟨⟨HS, Hg⟩, Ho, ⟨%d0, H0⟩, ⟨%d1, H1⟩, H2⟩
        rw [← pay2_tiles m c t d0 d1]
        iapply (run_first c (grid0.coords t) (ms0 t) (hs0 t) (ms1 t) (hs1 t) (ms2 t) (hs2 t) scM (Memref.isWhole_whole _)
          ((hcondFirst t).mpr h0) (fun h => h1 ((hcondLast t).mp h)) _ _ Set.univ _)
        isplitl [H0]; · iexact H0
        isplitl [H1]; · iexact H1
        isplitl [HS]; · iexists _; iexact HS
        iintro ⟨H0, H1, HS⟩
        isplitl [HS Hg]
        · isplitl [HS]; · iexact HS
          iexact Hg
        isplitl [Ho]; · iexact Ho
        isplitl [H0]; · iexists d0; iexact H0
        isplitl [H1]; · iexists d1; iexact H1
        iexact H2
    · have hz : t.val ≠ 0 := fun hz => h0 (by rw [hz])
      rw [leaves2_idle m c t (fun h => h1 ((hcondLast t).mp h)), accAt_next m c t h0, PhiS_castSucc m c t, PhiS_pos m c _ _ hz]
      iintro ⟨⟨HS, Hg⟩, Ho, ⟨%d0, H0⟩, ⟨%d1, H1⟩, H2⟩
      rw [← pay2_tiles m c t d0 d1]
      iapply (run_mid c (grid0.coords t) (ms0 t) (hs0 t) (ms1 t) (hs1 t) (ms2 t) (hs2 t) scM (Memref.isWhole_whole _)
        (fun h => h0 ((hcondFirst t).mp h)) (fun h => h1 ((hcondLast t).mp h)) _ _ _ Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexists d0; iexact H0
      isplitl [H1]; · iexists d1; iexact H1
      iexact H2

/-- The library's body obligation (each window's buffer stated where its transfers move it), at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 60 := N_0; omega), PhiA_eq]
  iintro ⟨HS, Hg⟩
  isplitl [HS]
  · iexists _; iexact HS
  iexact Hg

set_option backward.isDefEq.respectTransparency.types false in
/-- Every weakly fair execution of @main terminates without a fault, every array of the pipeline ending at what the library
    computes from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the run, read at the two argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.KTiles.lean ====
import proofs.«158700_j17918603559083_2_alg».proof.Proof.RunIdeal
import proofs.«158700_j17918603559083_2_alg».proof.Proof.LibDot
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat Cfg Window)
open scoped BigOperators

variable (m : (ℓ : Loc nD τ sig) → Buf (Elt Ideal) ℓ)

/-! # The tiles at the ideal values

Read at the ideal values (extended reals), a masked tile's entry is the matching entry of the whole factor when its position along
the contracted axis is below 30000, and zero otherwise; so a reduction step adds, to each entry of the running sum, the row-by-
column product over the step's 1024 positions of the two factors extended by zero past position 30000. -/

/-- The left factor as the region finds it: the first argument, reshaped from 64 × 50 × 30000 to 3200 × 30000. -/
theorem V_left (c : Dev nD) :
    (V m c main_v0 : S3200x30000.Idx → EReal) = shapeCast S3200x30000 (m ((c : Thread nD τ).loc main_arg0)) shapeCasts_S64x50x30000_S3200x30000 := by
  show StableHlo.after hostOps0 (fun b => m (c, b)) (Proc.devRef .tc main_v0) = _
  after_results
  rfl

/-- Decided over the grid: point `t` stages row block `t / 30` and reduction tile `t % 30`. -/
theorem idx_facts : ∀ t : Fin cfg0.N, win0_0.index t 0 = t.val / 30 ∧ win0_0.index t 1 = t.val % 30
    ∧ win0_1.index t 0 = t.val % 30 ∧ win0_1.index t 1 = 0 ∧ win0_2.index t 0 = t.val / 30 ∧ win0_2.index t 1 = 0 :=
  (by decide +kernel : ∀ t : Fin grid0.N, win0_0.index t 0 = t.val / 30 ∧ win0_0.index t 1 = t.val % 30
    ∧ win0_1.index t 0 = t.val % 30 ∧ win0_1.index t 1 = 0 ∧ win0_2.index t 0 = t.val / 30 ∧ win0_2.index t 1 = 0)

/-- The two factors as the region finds them, -/
def matA (c : Dev nD) : S3200x30000.Idx → EReal := V m c main_v0
def matB (c : Dev nD) : S30000x300.Idx → EReal := V m c main_arg1

/-- and extended by zero past their extents (so that a masked tile's entry needs no case distinction). -/
def Aext (c : Dev nD) (r v : ℕ) : EReal := if h : r < 3200 ∧ v < 30000 then matA m c (ix2 ⟨r, h.1⟩ ⟨v, h.2⟩) else 0
def Bext (c : Dev nD) (v : ℕ) (q : Fin 300) : EReal := if h : v < 30000 then matB m c (ix2 ⟨v, h⟩ q) else 0

/-- The left masked tile's entry (p, n) at point `t`: the left factor at row `1600·(t/30) + p`, position `1024·(t%30) + n`. -/
theorem mskL_tile (c : Dev nD) (t : Fin cfg0.N) (p : Fin 1600) (n : Fin 1024) :
    mskL (grid0.coords t) (tileL m c t) (ix2 p n) = Aext m c (t.val / 30 * 1600 + p.val) (t.val % 30 * 1024 + n.val) := by
  obtain ⟨hk, h00, h01, -, -⟩ := grid_facts t
  obtain ⟨i00, i01, -, -, -, -⟩ := idx_facts t
  have hN : t.val < 60 := lt_of_lt_of_eq t.isLt N_0
  have hi : ((grid0.coords t) 1).val < 30 := by rw [hk]; omega
  rw [mskL_apply _ hi]
  show (if ((grid0.coords t) 1).val * 1024 + n.val < 30000 then _ else _) = _
  rw [hk]
  by_cases hlt : t.val % 30 * 1024 + n.val < 30000
  · rw [if_pos hlt]
    have hr : t.val / 30 * 1600 + p.val < 3200 := by have := p.isLt; omega
    unfold Aext; rw [dif_pos ⟨hr, hlt⟩]
    have hm : win0_0.moved (grid0.coords t) (ix2 p n) = true := (win0_0.moved_iff _ _).mpr fun a => by
      match a with
      | ⟨0, _⟩ => show p.val < win0_0.xsize (grid0.coords t) 0; rw [h00]; exact p.isLt
      | ⟨1, _⟩ => show n.val < win0_0.xsize (grid0.coords t) 1; rw [h01]; have := n.isLt; split <;> omega
    unfold tileL Window.fill; rw [dif_pos hm]
    unfold blkL matA
    rw [View.read_apply]
    refine congrArg (V m c main_v0) (funext fun a => Fin.ext ?_)
    match a with
    | ⟨0, _⟩ => show win0_0.index t 0 * 1600 + 1 * p.val = t.val / 30 * 1600 + p.val; rw [i00]; omega
    | ⟨1, _⟩ => show win0_0.index t 1 * 1024 + 1 * n.val = t.val % 30 * 1024 + n.val; rw [i01]; omega
  · rw [if_neg hlt]; unfold Aext; rw [dif_neg (fun h => hlt h.2)]; exact Ideal.ofBits_zero_f32

/-- The right masked tile's entry (n, q) at point `t`: the right factor at position `1024·(t%30) + n`, column `q`. -/
theorem mskR_tile (c : Dev nD) (t : Fin cfg0.N) (n : Fin 1024) (q : Fin 300) :
    mskR (grid0.coords t) (tileR m c t) (ix2 n q) = Bext m c (t.val % 30 * 1024 + n.val) q := by
  obtain ⟨hk, -, -, h10, h11⟩ := grid_facts t
  obtain ⟨-, -, i10, i11, -, -⟩ := idx_facts t
  have hN : t.val < 60 := lt_of_lt_of_eq t.isLt N_0
  have hi : ((grid0.coords t) 1).val < 30 := by rw [hk]; omega
  rw [mskR_apply _ hi]
  show (if ((grid0.coords t) 1).val * 1024 + n.val < 30000 then _ else _) = _
  rw [hk]
  by_cases hlt : t.val % 30 * 1024 + n.val < 30000
  · rw [if_pos hlt]
    unfold Bext; rw [dif_pos hlt]
    have hm : win0_1.moved (grid0.coords t) (ix2 n q) = true := (win0_1.moved_iff _ _).mpr fun a => by
      match a with
      | ⟨0, _⟩ => show n.val < win0_1.xsize (grid0.coords t) 0; rw [h10]; have := n.isLt; split <;> omega
      | ⟨1, _⟩ => show q.val < win0_1.xsize (grid0.coords t) 1; rw [h11]; exact q.isLt
    unfold tileR Window.fill; rw [dif_pos hm]
    unfold blkR matB
    rw [View.read_apply]
    refine congrArg (V m c main_arg1) (funext fun a => Fin.ext ?_)
    match a with
    | ⟨0, _⟩ => show win0_1.index t 0 * 1024 + 1 * n.val = t.val % 30 * 1024 + n.val; rw [i10]; omega
    | ⟨1, _⟩ => show win0_1.index t 1 * 300 + 1 * q.val = q.val; rw [i11]; omega
  · rw [if_neg hlt]; unfold Bext; rw [dif_neg hlt]; exact Ideal.ofBits_zero_f32

/-- The step's arithmetic at an entry, at the ideal values: the running sum's entry plus the row-by-column product of the two
    masked tiles (rounding to bf16 is the identity, and the matrix unit's product into a zero accumulator is the plain sum). -/
theorem pay2_apply (i : grid0.Coords) (X0 : Vec Ideal S1600x1024 .f32) (X1 : Vec Ideal S1024x300 .f32) (S : Vec Ideal S1600x300 .f32)
    (p : Fin 1600) (q : Fin 300) :
    k0_pay2 (F := Ideal) i X0 X1 S (ix2 p q) = S (ix2 p q) + ∑ n : Fin 1024, mskL i X0 (ix2 p n) * mskR i X1 (ix2 n q) := by
  rw [pay2_eq]; unfold stepOf
  rw [Idealize.ShloMosaic.shapeCast_self]
  show (S (ix2 p q) : EReal) + matmul dot_S1600x1024_S1024x300_S1600x300_1_0_0_1_n_n none (truncf .bf16 (mskL i X0) bitsLt_bf16_f32) (truncf .bf16 (mskR i X1) bitsLt_bf16_f32) (constant S1600x300 .f32 0x00000000#32) (ix2 p q) = _
  congr 1
  exact Cert.LibDot.matmul_zero_apply dot_S1600x1024_S1024x300_S1600x300_1_0_0_1_n_n_wf none _ _ p q

end Cert.KernelIdeal.KValue
end
-- ==== Proof.LibSums.lean ====
import Idealize.ShloMosaic.Lib.ValueIdx

/-! # A sum taken tile by tile

A sum over `a · b` consecutive positions is the sum over `a` tiles of the sums over each tile's `b` positions; and a sum
whose terms vanish past position `n` is the sum of its first `n` terms. Stated for any commutative additive monoid. -/

namespace Cert.Sums

open scoped BigOperators

variable {M : Type} [AddCommMonoid M]

/-- Tile by tile: the sums over the tiles `k·b … k·b + b − 1`, `k < a`, add up to the sum over the first `a·b` positions. -/
theorem sum_tiles (a b : ℕ) (f : ℕ → M) :
    ∑ k ∈ Finset.range a, ∑ n : Fin b, f (k * b + n.val) = ∑ v ∈ Finset.range (a * b), f v := by
  induction a with
  | zero => simp
  | succ a ih =>
    rw [Finset.sum_range_succ, ih, Nat.succ_mul, Finset.sum_range_add]
    congr 1
    exact (Finset.sum_range (fun x => f (a * b + x))).symm

/-- Terms that vanish from position `n` on do not count. -/
theorem sum_range_of_tail_zero (n e : ℕ) (f : ℕ → M) (h : ∀ x, f (n + x) = 0) :
    ∑ v ∈ Finset.range (n + e), f v = ∑ v : Fin n, f v.val := by
  rw [Finset.sum_range_add, Finset.sum_range, Finset.sum_eq_zero (fun x _ => h x), add_zero]

end Cert.Sums
-- ==== Proof.KAcc.lean ====
import proofs.«158700_j17918603559083_2_alg».proof.Proof.KTiles
import proofs.«158700_j17918603559083_2_alg».proof.Proof.LibSums
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat Cfg Window)
open scoped BigOperators

variable (m : (ℓ : Loc nD τ sig) → Buf (Elt Ideal) ℓ)

/-! # The running sum in closed form -/

/-- One reduction step's contribution to entry (row `r`, column `q`): the products over the step's 1024 positions. -/
def term (c : Dev nD) (r k : ℕ) (q : Fin 300) : EReal :=
  ∑ n : Fin 1024, Aext m c r (k * 1024 + n.val) * Bext m c (k * 1024 + n.val) q

theorem step_term (c : Dev nD) (t : Fin cfg0.N) (p : Fin 1600) (q : Fin 300) :
    ∑ n : Fin 1024, mskL (grid0.coords t) (tileL m c t) (ix2 p n) * mskR (grid0.coords t) (tileR m c t) (ix2 n q)
      = term m c (t.val / 30 * 1600 + p.val) (t.val % 30) q := by
  unfold term
  exact Finset.sum_congr rfl fun n _ => by rw [mskL_tile, mskR_tile]

/-- The zero the first step starts from. -/
theorem pay1_apply (j : S1600x300.Idx) : k0_pay1 (F := Ideal) j = 0 := by
  unfold k0_pay1
  rw [Idealize.ShloMosaic.shapeCast_self]
  exact Ideal.ofBits_zero_f32

/-- After the body at point `n` the scratch holds, at (p, q), the contributions of the reduction steps `0 … n % 30` of row block
    `n / 30`. -/
theorem accAt_apply (c : Dev nD) : ∀ (n : ℕ) (hn : n < cfg0.N) (p : Fin 1600) (q : Fin 300),
    accAt m c n hn (ix2 p q) = ∑ k ∈ Finset.range (n % 30 + 1), term m c (n / 30 * 1600 + p.val) k q := by
  intro n
  induction n using Nat.strong_induction_on with
  | _ n ih =>
    intro hn p q
    by_cases h0 : n % 30 = 0
    · rw [accAt_first m c ⟨n, hn⟩ h0, pay2_apply, step_term m c ⟨n, hn⟩, pay1_apply, zero_add]
      show term m c (n / 30 * 1600 + p.val) (n % 30) q = _
      rw [h0, Finset.sum_range_one]
    · have hpos : n ≠ 0 := fun h => h0 (by rw [h])
      rw [accAt_next m c ⟨n, hn⟩ h0, pay2_apply, step_term m c ⟨n, hn⟩]
      show accAt m c (n - 1) _ (ix2 p q) + term m c (n / 30 * 1600 + p.val) (n % 30) q = _
      rw [ih (n - 1) (by omega) _ p q]
      have e1 : (n - 1) / 30 = n / 30 := by omega
      have e2 : (n - 1) % 30 + 1 = n % 30 := by omega
      rw [e1, e2]
      exact (Finset.sum_range_succ _ _).symm

/-- What the output ends at, as a 3200 × 300 array: the product of the two factors. -/
def Gmat (c : Dev nD) : S3200x300.Idx → EReal := fun i => ∑ v : Fin 30000, matA m c (ix2 (i 0) v) * matB m c (ix2 v (i 1))

/-- At a last reduction step the running sum is the whole product's entry: the 30 tiles of 1024 positions are the first 30720
    positions, of which those from 30000 on contribute zero. -/
theorem acc_last (c : Dev nD) (t : Fin cfg0.N) (h : t.val % 30 = 29) (p : Fin 1600) (q : Fin 300) (hr : t.val / 30 * 1600 + p.val < 3200) :
    accAt m c t.val t.isLt (ix2 p q) = Gmat m c (ix2 ⟨t.val / 30 * 1600 + p.val, hr⟩ q) := by
  rw [accAt_apply, h]
  unfold term
  rw [Cert.Sums.sum_tiles 30 1024 (fun v => Aext m c (t.val / 30 * 1600 + p.val) v * Bext m c v q),
    show 30 * 1024 = 30000 + 720 from rfl,
    Cert.Sums.sum_range_of_tail_zero 30000 720 _ (fun x => by
      show Aext m c _ (30000 + x) * _ = 0
      unfold Aext; rw [dif_neg (fun h => by omega), zero_mul])]
  unfold Gmat
  refine Finset.sum_congr rfl fun v _ => ?_
  show Aext m c _ v.val * Bext m c v.val q = _
  unfold Aext Bext
  rw [dif_pos ⟨hr, v.isLt⟩, dif_pos v.isLt]

end Cert.KernelIdeal.KValue
end
-- ==== Proof.KFinal.lean ====
import proofs.«158700_j17918603559083_2_alg».proof.Proof.KAcc
import Idealize.ShloMosaic.Lib.ValueIdx
import Idealize.ShloMosaic.Lib.Pipeline.Value
import Idealize.ShloMosaic.PureOps.Ideal.Laws
import Idealize.ShloMosaic.Lib.StableHlo.Run

set_option maxRecDepth 65536

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat Cfg Window)
open scoped BigOperators

variable (m : (ℓ : Loc nD τ sig) → Buf (Elt Ideal) ℓ)

variable (ρ : Dev nD → PrngReg)

/-! # From the blocks to the result array, and the kernel's run read at its result

The output's block at row block `b` is written back once, after reduction step 29, holding the running sum — the product's rows
`1600·b … 1600·b + 1599`; the two blocks cover the 3200 × 300 array; the reshape after the region reads it as 64 × 50 × 300. -/

/-- What a point that writes back writes: its block of the product. -/
theorem flushed_eq (c : Dev nD) (t : Fin cfg0.N) (hf : (cfg0.win 2).flush t = true) :
    (dats m 0 c).flushed 2 t = ((cfg0.win 2).blk t).view.read (Elt Ideal) (Gmat m c) := by
  have h29 : t.val % 30 = 29 := (flush0_2 t).mp hf
  obtain ⟨-, -, -, -, i20, i21⟩ := idx_facts t
  have hN : t.val < 60 := lt_of_lt_of_eq t.isLt N_0
  show (cfg0.win 2).cut (grid0.coords t) ((dats m 0 c).after 2 t) = _
  rw [after2]
  funext y
  obtain ⟨p, q, rfl⟩ : ∃ (p : Fin 1600) (q : Fin 300), y = ix2 p q := ⟨y 0, y 1, eq_ix2 y⟩
  have hr : t.val / 30 * 1600 + p.val < 3200 := by have := p.isLt; omega
  rw [View.read_apply]
  have key : ∀ X : S1600x300.Idx → EReal, (cfg0.win 2).cut (grid0.coords t) X (ix2 p q) = X (ix2 p q) := fun X => rfl
  rw [key, acc_last m c t h29 p q hr]
  have h0 : ((cfg0.win 2).blk t).view.emb (ix2 p q) = ix2 ⟨t.val / 30 * 1600 + p.val, hr⟩ q := by
    funext a; apply Fin.ext
    match a with
    | ⟨0, _⟩ => show win0_2.index t 0 * 1600 + 1 * p.val = t.val / 30 * 1600 + p.val; rw [i20]; omega
    | ⟨1, _⟩ => show win0_2.index t 1 * 300 + 1 * q.val = q.val; rw [i21]; omega
  rw [h0]; rfl

/-- An index of the array is in point `t`'s block iff each coordinate is in the block's range on its axis. -/
theorem mem_blk (t : Fin cfg0.N) (i : S3200x300.Idx) :
    i ∈ ((cfg0.win 2).blk t).view.set ↔ ∀ a : Fin 2, win0_2.index t a * S1600x300.size a ≤ (i a).val ∧ (i a).val < win0_2.index t a * S1600x300.size a + S1600x300.size a := by
  show i ∈ ((View.whole main_v1).slice (win0_2.rect t)).set ↔ _
  rw [View.set_slice_whole, Rect.mem_set_unit]
  exact Iff.rfl

/-- Every index of the array is in the block written back after the last reduction step of its row block. -/
theorem cover (i : S3200x300.Idx) : ∃ t : Fin cfg0.N, (cfg0.win 2).flush t = true ∧ i ∈ ((cfg0.win 2).blk t).view.set := by
  have hi0 : (i 0).val < 3200 := (i 0).isLt
  have hi1 : (i 1).val < 300 := (i 1).isLt
  have hN : cfg0.N = 60 := N_0
  let t : Fin cfg0.N := ⟨(i 0).val / 1600 * 30 + 29, by omega⟩
  have ht : t.val = (i 0).val / 1600 * 30 + 29 := rfl
  obtain ⟨-, -, -, -, i20, i21⟩ := idx_facts t
  refine ⟨t, (flush0_2 t).mpr (by rw [ht]; omega), (mem_blk t i).mpr fun a => ?_⟩
  match a with
  | ⟨0, _⟩ => show win0_2.index t 0 * 1600 ≤ (i 0).val ∧ (i 0).val < win0_2.index t 0 * 1600 + 1600; rw [i20, ht]; omega
  | ⟨1, _⟩ => show win0_2.index t 1 * 300 ≤ (i 1).val ∧ (i 1).val < win0_2.index t 1 * 300 + 300; rw [i21]; omega

/-- The output array after the run is the product. -/
theorem final (c : Dev nD) : (dats m 0 c).arrAt 2 cfg0.N = Gmat m c :=
  (dats m 0 c).arrAt_eq_of_cover 2 (Gmat m c) (fun t hf => flushed_eq m c t hf) cover

/-- The kernel's result: the product read as 64 × 50 × 300. -/
def Gres (c : Dev nD) : S64x50x300.Idx → EReal := shapeCast S64x50x300 (Gmat m c) shapeCasts_S3200x300_S64x50x300

/-- The reshape after the region, applied to what the region leaves in the output array. -/
theorem tail_eq (c : Dev nD) :
    Pipeline.afterTail₀ cfgs (dats m) 0 (V0 m) [hostOps1] c main_v2 = Gres m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1) = Gmat m c :=
    (Pipeline.withArrays_arr spec0 launch0.win.arr_inj c _ _ 2).trans (final m c)
  rw [hw]; rfl

/-- THE KERNEL'S RUN, READ: every weakly fair execution of @main terminates with the result at the product read as 64 × 50 × 300
    and the two arguments unchanged. -/
theorem run : θ_run defs (onTc (τ := τ) (main (F := Ideal))) ⟨m, fun _ => 0, ρ⟩ fun r => ∀ c : Dev nD,
      r.2.mem ((c.tc : Thread nD τ).loc main_v2) = Gres m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main (F := Ideal) m ρ)

end Cert.KernelIdeal.KValue
end
-- ==== Proof.Spec.lean ====
import Idealize.ShloMosaic.Lib.ValueIdx
import Idealize.ShloMosaic.PureOps.Ideal

noncomputable section

/-! # What both programs compute

For `x` of shape 64 × 50 × 30000 and `w` of shape 30000 × 300, the result at (b, s, d) is the sum over the 30000 positions `v` of
`x (b, s, v) · w (v, d)`, on the extended reals. The reference is one contraction; the kernel sums it in 30 tiles of 1024
positions, the last tile's 720 positions past the end masked to zero. Addition on the extended reals is commutative and
associative, and the masked products are `0 · 0 = 0`, so no finiteness is needed. -/

namespace Cert.Spec

open Idealize.ShloMosaic Idealize.ShloMosaic.ValueIdx
open scoped BigOperators

def G (x : (⟨3, ![64, 50, 30000]⟩ : Shape).Idx → EReal) (w : (⟨2, ![30000, 300]⟩ : Shape).Idx → EReal) :
    (⟨3, ![64, 50, 300]⟩ : Shape).Idx → EReal :=
  fun i => ∑ v : Fin 30000, x (ix3 (i 0) (i 1) v) * w (ix2 v (i 2))

end Cert.Spec

end
-- ==== Proof.KRes.lean ====
import proofs.«158700_j17918603559083_2_alg».proof.Proof.KFinal
import proofs.«158700_j17918603559083_2_alg».proof.Proof.Spec
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat Cfg Window)
open scoped BigOperators

variable (m : (ℓ : Loc nD τ sig) → Buf (Elt Ideal) ℓ)

/-! # The kernel's result is the specification's sum -/

/-- Entry (b, s, d) of the result is entry (50·b + s, d) of the 3200 × 300 product, whose left factor's row `50·b + s` is row
    (b, s) of the first argument: both reshapes keep the row-major position. -/
theorem res_eq (c : Dev nD) :
    Gres m c = Cert.Spec.G (m ((c.tc : Thread nD τ).loc main_arg0)) (m ((c.tc : Thread nD τ).loc main_arg1)) := by
  funext i
  obtain ⟨b, s, d, rfl⟩ : ∃ (b : Fin 64) (s : Fin 50) (d : Fin 300), i = ix3 b s d := ⟨i 0, i 1, i 2, eq_ix3 i⟩
  have hr : b.val * 50 + s.val < 3200 := by have := b.isLt; have := s.isLt; omega
  unfold Gres
  rw [shapeCast_apply (Gmat m c) shapeCasts_S3200x300_S64x50x300 (ix3 b s d) (ix2 ⟨b.val * 50 + s.val, hr⟩ d) (by
    rw [Shape.rowMajor_val_two, Shape.rowMajor_val_three]; rfl)]
  unfold Gmat Cert.Spec.G
  refine Finset.sum_congr rfl fun v _ => ?_
  show matA m c (ix2 ⟨b.val * 50 + s.val, hr⟩ v) * matB m c (ix2 v d) = _
  congr 1
  · unfold matA
    rw [V_left, shapeCast_apply _ shapeCasts_S64x50x30000_S3200x30000 (ix2 ⟨b.val * 50 + s.val, hr⟩ v) (ix3 b s v) (by
      rw [Shape.rowMajor_val_two, Shape.rowMajor_val_three]; rfl)]

end Cert.KernelIdeal.KValue
end
-- ==== Proof.RefValue.lean ====
import proofs.«158700_j17918603559083_2_alg».proof.Proof.Gen.ReferenceIdeal.Read
import proofs.«158700_j17918603559083_2_alg».proof.Proof.Spec

noncomputable section

/-! # The reference at an index

The reference is one contraction of the first argument's last axis with the second argument's first axis; at the ideal values its
entry (b, s, d) is the sum over the 30000 contracted positions, which is the specification's sum term by term. -/

namespace Cert.ReferenceIdeal.RefValue

open Idealize.ShloMosaic Idealize.ShloMosaic.ValueIdx
open Cert.ReferenceIdeal Cert.ReferenceIdeal.Gen Cert.ReferenceIdeal.Read
open scoped BigOperators

/-- The reference's one contraction, read at an index, is the specification's sum. -/
theorem ref_eq (x0 : (⟨S64x50x30000, .f32⟩ : BufTy).Contents (Elt Ideal)) (x1 : (⟨S30000x300, .f32⟩ : BufTy).Contents (Elt Ideal)) :
    val_main_v0 (F := Ideal) x0 x1 = Cert.Spec.G x0 x1 := by
  funext i
  rw [val_main_v0_apply]
  unfold Cert.Spec.G
  refine Finset.sum_congr rfl fun k _ => ?_
  have el : lidx_main_v0 i k = ix3 (i 0) (i 1) k := funext fun a => Fin.ext (by match a with | ⟨0, _⟩ => rfl | ⟨1, _⟩ => rfl | ⟨2, _⟩ => rfl)
  have er : ridx_main_v0 i k = ix2 k (i 2) := funext fun a => Fin.ext (by match a with | ⟨0, _⟩ => rfl | ⟨1, _⟩ => rfl)
  rw [el, er]; rfl

end Cert.ReferenceIdeal.RefValue

end
-- ==== Proof.lean ====
/- The proof of `Cert.Claim` (proofs.«158700_j17918603559083_2_alg».proof.Defs).

   The kernel multiplies a 3200 × 30000 matrix (the first argument, its two leading axes merged) by a 30000 × 300 matrix on a
   2 × 30 grid: row block `i` (1600 rows) against the 30 tiles of 1024 positions of the contracted axis, the products summed in a
   scratch buffer that is zeroed at the first tile and copied to the output block after the last. 30 · 1024 = 30720 exceeds
   30000, so the last tile of either factor overhangs its array by 720 positions; the kernel puts those positions to zero on
   both factors before multiplying, so nothing of what the overhanging part of a staging buffer holds reaches the sum.

   The frames (both programs with a kernel, at any float instance): the three runs of the body (Proof/Body*.lean), the mask
   (Proof/Mask*.lean), the proof data with the scratch carried at the running sum (Proof/Data*.lean) and the body obligation and
   launch (Proof/Run*.lean). The value at the ideal instance: a masked tile's entry is the factor's entry extended by zero
   (Proof/KTiles.lean), the running sum after the last tile is the whole contraction (Proof/KAcc.lean: 30 tiles of 1024 are the
   first 30720 positions, those from 30000 on contribute 0 · 0 = 0; only commutativity and associativity of the extended reals'
   addition are used, so the precondition is never opened), the two output blocks cover the array and the final reshape keeps
   row-major positions (Proof/KFinal.lean, Proof/KRes.lean); the reference's one contraction is the same sum
   (Proof/RefValue.lean). The ideal pass rewrote nothing, so `preserves` is `True`. -/
import proofs.«158700_j17918603559083_2_alg».proof.Defs
import proofs.«158700_j17918603559083_2_alg».proof.Proof.Gen.Kernel
import proofs.«158700_j17918603559083_2_alg».proof.Proof.Gen.KernelIdeal
import proofs.«158700_j17918603559083_2_alg».proof.Proof.Gen.ReferenceIdeal
import proofs.«158700_j17918603559083_2_alg».proof.Proof.Gen.Pre_finite_inputs
import proofs.«158700_j17918603559083_2_alg».proof.Proof.Gen.ReferenceIdeal.Run
import proofs.«158700_j17918603559083_2_alg».proof.Proof.RunBits
import proofs.«158700_j17918603559083_2_alg».proof.Proof.KRes
import proofs.«158700_j17918603559083_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification's sum of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KValue.res_eq m c), (h c).2⟩) (Cert.KernelIdeal.KValue.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v0_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
